-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x4096 : Shape := ⟨2, ![512, 4096]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S4096x64 .f32) (main_arg5 : FVec F S64 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x4096 .f32) (main_arg3 : FVec F S4096 .f32) (main_arg4 : FVec F S4096x64 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x4096 : Shape := ⟨2, ![512, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S1x64 : Shape := ⟨2, ![1, 64]⟩
abbrev S256x4096 : Shape := ⟨2, ![256, 4096]⟩
abbrev S256x64 : Shape := ⟨2, ![256, 64]⟩
abbrev S256x512 : Shape := ⟨2, ![256, 512]⟩
abbrev S512x64 : Shape := ⟨2, ![512, 64]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x4096, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S1x4096, .f32⟩
  | .hbm, ⟨7, _⟩ => ⟨S1x64, .f32⟩
  | .hbm, ⟨8, _⟩ => ⟨S4096x64, .bf16⟩
  | .hbm, ⟨9, _⟩ => ⟨S4096x4096, .bf16⟩
  | .hbm, ⟨10, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S512x4096, .f32⟩
  | .local _ .vmem, ⟨4, _⟩ => ⟨S1x4096, .f32⟩
  | .local _ .vmem, ⟨5, _⟩ => ⟨S4096x64, .f32⟩
  | .local _ .vmem, ⟨6, _⟩ => ⟨S256x64, .bf16⟩
  | .local _ .vmem, ⟨7, _⟩ => ⟨S256x64, .bf16⟩
  | .local _ .vmem, ⟨8, _⟩ => ⟨S256x4096, .bf16⟩
  | .local _ .vmem, ⟨9, _⟩ => ⟨S256x4096, .bf16⟩
  | .local _ .vmem, ⟨10, _⟩ => ⟨S4096x512, .bf16⟩
  | .local _ .vmem, ⟨11, _⟩ => ⟨S512x4096, .bf16⟩
  | .local _ .vmem, ⟨12, _⟩ => ⟨S4096x64, .bf16⟩
  | .local _ .vmem, ⟨13, _⟩ => ⟨S512x4096, .bf16⟩
  | .local _ .vmem, ⟨14, _⟩ => ⟨S512x4096, .bf16⟩
  | .local _ .vmem, ⟨15, _⟩ => ⟨S4096x64, .bf16⟩
  | .local _ .vmem, ⟨16, _⟩ => ⟨S1x64, .f32⟩
  | .local _ .vmem, ⟨17, _⟩ => ⟨S512x64, .f32⟩
  | .local _ .vmem, ⟨18, _⟩ => ⟨S512x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096_S1x4096 : S4096.ShapeCasts S1x4096
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  dot_S256x4096_S4096x64_S256x64_1_0_0_1_n_n_wf : DotDims.WF S256x4096 S4096x64 S256x64 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .f32 = 32 ∨ (Rect.block (s := S512x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S4096x64.size a
  hwx0_5 : ∀ i : grid0.Coords, EltTy.bits .bf16 = 32 ∨ (Rect.block (s := S4096x64) S256x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .bf16 = 32 ∨ (Rect.block (s := S4096x4096) S256x4096.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .bf16 = 32 ∨ (Rect.block (s := S4096x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S4096x64.size a
  hwx1_3 : ∀ i : grid1.Coords, EltTy.bits .f32 = 32 ∨ (Rect.block (s := S4096x64) S512x64.size (cc1_transform_3 i) (hinb1_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x4096 : Shape := ⟨2, ![512, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S_ : Shape := ⟨0, ![]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x4096, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S4096x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x64, .f32⟩
  | .hbm, ⟨15, _⟩ => ⟨S4096x64, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S4096x512_S512x4096_S4096x4096_1_0_0_1_n_n_wf : DotDims.WF S4096x512 S512x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x64_S4096x64_1_0_0_1_n_n_wf : DotDims.WF S4096x4096 S4096x64 S4096x64 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KBody0.lean ====
/-
  The first kernel's body, one grid point.  At the first point only it narrows the whole feature matrix X and the two
  weight matrices W1, W2 into three scratch buffers; at every point it narrows its 256 x 4096 block of rows of the
  adjacency into the second output block, and stores into the first output block the block's rows of
  max ((A_blk Xs) W1s + b1, 0) W2s, where Xs, W1s, W2s are what the scratch buffers hold.  Two cases, decided by the grid
  coordinate: the first point (the scratch buffers are filled, then read back) and every later point (they are
  read as the first point left them).  Stated for any float instance.
-/
import proofs.«180878_g24567212934045_cont_8to1_979_11_alg».proof.Proof.Gen.Kernel.Launch
import proofs.«180878_g24567212934045_cont_8to1_979_11_alg».proof.Proof.Gen.Kernel.Skeleton
import proofs.«180878_g24567212934045_cont_8to1_979_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition, from the grid coordinate -/

/-- The body's `scf.if`: the coordinate is zero. -/
abbrev condA (i : grid0.Coords) : Prop := (Scalar.cmpi .ne (Scalar.extui (Scalar.cmpi .eq (BitVec.ofNat 32 (i 0).val) 0#32)) 0#32) = 1#1

/-- It holds at the first point only. -/
theorem hcondA : ∀ t : Fin cfg0.N, condA (grid0.coords t) ↔ t.val = 0 :=
  (by decide +kernel : ∀ t : Fin grid0.N, condA (grid0.coords t) ↔ t.val = 0)

/-! ## The body's rectangles: every access is a whole buffer -/

abbrev rA1 : Rect S256x4096 := Rect.unit (s := S256x4096) ![0, 0] S256x4096.size inb_S256x4096_S256x4096_0_0
abbrev rA2 : Rect S4096x512 := Rect.unit (s := S4096x512) ![0, 0] S4096x512.size inb_S4096x512_S4096x512_0_0
abbrev rA3 : Rect S512x4096 := Rect.unit (s := S512x4096) ![0, 0] S512x4096.size inb_S512x4096_S512x4096_0_0
abbrev rA4 : Rect S1x4096 := Rect.unit (s := S1x4096) ![0, 0] S1x4096.size inb_S1x4096_S1x4096_0_0
abbrev rA5 : Rect S4096x64 := Rect.unit (s := S4096x64) ![0, 0] S4096x64.size inb_S4096x64_S4096x64_0_0
abbrev rA6 : Rect S256x64 := Rect.unit (s := S256x64) ![0, 0] S256x64.size inb_S256x64_S256x64_0_0

/-! ## What the body leaves -/

/-- The narrowed feature matrix, as the first point stores it into the first scratch buffer. -/
def scX (x2 : Vec F S4096x512 .f32) : Vec F S4096x512 .bf16 := View.canon [⟨rA2, k0_pay1 (View.ld x2 rA2)⟩]
/-- The narrowed first weight matrix (second scratch buffer). -/
def scW1 (x3 : Vec F S512x4096 .f32) : Vec F S512x4096 .bf16 := View.canon [⟨rA3, k0_pay2 (View.ld x3 rA3)⟩]
/-- The narrowed second weight matrix (third scratch buffer). -/
def scW2 (x5 : Vec F S4096x64 .f32) : Vec F S4096x64 .bf16 := View.canon [⟨rA5, k0_pay3 (View.ld x5 rA5)⟩]

/-- The first output block after the body, from the adjacency block, the bias row and what the scratch buffers hold. -/
def outG (x1 : Vec F S256x4096 .f32) (s8 : Vec F S4096x512 .bf16) (s9 : Vec F S512x4096 .bf16) (x4 : Vec F S1x4096 .f32)
    (s10 : Vec F S4096x64 .bf16) : Vec F S256x64 .bf16 :=
  View.canon [⟨rA6, k0_pay5 (View.ld x1 rA1) (View.ld s8 rA2) (View.ld s9 rA3) (View.ld x4 rA4) (View.ld s10 rA5)⟩]

/-- The second output block after the body: the adjacency block narrowed. -/
def outAdj (x1 : Vec F S256x4096 .f32) : Vec F S256x4096 .bf16 := View.canon [⟨rA1, k0_pay4 (View.ld x1 rA1)⟩]

/-! ## One whole-buffer store covers its buffer -/

theorem cover1 (p0 : Vec F S256x4096 .bf16) (y : S256x4096.Idx) :
    ∃ pc ∈ ([⟨rA1, p0⟩] : List (View.Piece (Elt F) S256x4096 .bf16)), y ∈ pc.1.set :=
  View.cover_of_tiled [⟨rA1, p0⟩] S256x4096.size (by rfl) y
theorem cover2 (p0 : Vec F S4096x512 .bf16) (y : S4096x512.Idx) :
    ∃ pc ∈ ([⟨rA2, p0⟩] : List (View.Piece (Elt F) S4096x512 .bf16)), y ∈ pc.1.set :=
  View.cover_of_tiled [⟨rA2, p0⟩] S4096x512.size (by rfl) y
theorem cover3 (p0 : Vec F S512x4096 .bf16) (y : S512x4096.Idx) :
    ∃ pc ∈ ([⟨rA3, p0⟩] : List (View.Piece (Elt F) S512x4096 .bf16)), y ∈ pc.1.set :=
  View.cover_of_tiled [⟨rA3, p0⟩] S512x4096.size (by rfl) y
theorem cover5 (p0 : Vec F S4096x64 .bf16) (y : S4096x64.Idx) :
    ∃ pc ∈ ([⟨rA5, p0⟩] : List (View.Piece (Elt F) S4096x64 .bf16)), y ∈ pc.1.set :=
  View.cover_of_tiled [⟨rA5, p0⟩] S4096x64.size (by rfl) y
theorem cover6 (p0 : Vec F S256x64 .bf16) (y : S256x64.Idx) :
    ∃ pc ∈ ([⟨rA6, p0⟩] : List (View.Piece (Elt F) S256x64 .bf16)), y ∈ pc.1.set :=
  View.cover_of_tiled [⟨rA6, p0⟩] S256x64.size (by rfl) y

/-! ## The body's triple, case by case -/

set_option maxHeartbeats 2000000 in
/-- THE FIRST POINT: the five inputs at read contents, the outputs and the scratch buffers at anything; the body ends
    with the inputs as they were, the scratch buffers at the narrowed X, W1, W2 and the outputs at `outG` / `outAdj` of them. -/
theorem sound_kernelA (c : Dev nD) (E : Set ℕ) (i : grid0.Coords) (arg1 : Memref sig .tc .vmem S256x4096 .f32) (harg1 : arg1.IsWhole) (arg2 : Memref sig .tc .vmem S4096x512 .f32) (harg2 : arg2.IsWhole) (arg3 : Memref sig .tc .vmem S512x4096 .f32) (harg3 : arg3.IsWhole) (arg4 : Memref sig .tc .vmem S1x4096 .f32) (harg4 : arg4.IsWhole) (arg5 : Memref sig .tc .vmem S4096x64 .f32) (harg5 : arg5.IsWhole) (arg6 : Memref sig .tc .vmem S256x64 .bf16) (harg6 : arg6.IsWhole) (arg7 : Memref sig .tc .vmem S256x4096 .bf16) (harg7 : arg7.IsWhole) (arg8 : Memref sig .tc .vmem S4096x512 .bf16) (harg8 : arg8.IsWhole) (arg9 : Memref sig .tc .vmem S512x4096 .bf16) (harg9 : arg9.IsWhole) (arg10 : Memref sig .tc .vmem S4096x64 .bf16) (harg10 : arg10.IsWhole) (hc : condA i)
    (x1 : Vec F S256x4096 .f32) (x2 : Vec F S4096x512 .f32) (x3 : Vec F S512x4096 .f32) (x4 : Vec F S1x4096 .f32) (x5 : Vec F S4096x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outG x1 (scX x2) (scW1 x3) x4 (scW2 x5)) ∗ owns (c : Thread nD τ) arg7 fullShare (outAdj x1)
            ∗ owns (c : Thread nD τ) arg8 fullShare (scX x2) ∗ owns (c : Thread nD τ) arg9 fullShare (scW1 x3) ∗ owns (c : Thread nD τ) arg10 fullShare (scW2 x5)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1; subst hf2; subst hf3; subst hf4; subst hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.readCov_eq_canon_ld _ _ _ (cover2 _), View.readCov_eq_canon_ld _ _ _ (cover3 _), View.readCov_eq_canon_ld _ _ _ (cover5 _)]
    exact View.read_writes_eq_canon _ _ _ (cover6 _)
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover2 _)
  isplitl [H9]
  · iexists _; isplitr
    swap; · iexact H9
    ipureintro
    exact View.read_writes_eq_canon _ _ _ (cover3 _)
  iexists _; isplitr
  swap; · iexact H10
  ipureintro
  exact View.read_writes_eq_canon _ _ _ (cover5 _)

set_option maxHeartbeats 2000000 in
/-- A LATER POINT: the inputs and the scratch buffers at read contents, the outputs at anything; the body ends with all
    of them as they were and the outputs at `outG` / `outAdj`. -/
theorem sound_kernelB (c : Dev nD) (E : Set ℕ) (i : grid0.Coords) (arg1 : Memref sig .tc .vmem S256x4096 .f32) (harg1 : arg1.IsWhole) (arg2 : Memref sig .tc .vmem S4096x512 .f32) (harg2 : arg2.IsWhole) (arg3 : Memref sig .tc .vmem S512x4096 .f32) (harg3 : arg3.IsWhole) (arg4 : Memref sig .tc .vmem S1x4096 .f32) (harg4 : arg4.IsWhole) (arg5 : Memref sig .tc .vmem S4096x64 .f32) (harg5 : arg5.IsWhole) (arg6 : Memref sig .tc .vmem S256x64 .bf16) (harg6 : arg6.IsWhole) (arg7 : Memref sig .tc .vmem S256x4096 .bf16) (harg7 : arg7.IsWhole) (arg8 : Memref sig .tc .vmem S4096x512 .bf16) (harg8 : arg8.IsWhole) (arg9 : Memref sig .tc .vmem S512x4096 .bf16) (harg9 : arg9.IsWhole) (arg10 : Memref sig .tc .vmem S4096x64 .bf16) (harg10 : arg10.IsWhole) (hc : ¬condA i)
    (x1 : Vec F S256x4096 .f32) (x2 : Vec F S4096x512 .f32) (x3 : Vec F S512x4096 .f32) (x4 : Vec F S1x4096 .f32) (x5 : Vec F S4096x64 .f32)
    (s8 : Vec F S4096x512 .bf16) (s9 : Vec F S512x4096 .bf16) (s10 : Vec F S4096x64 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outG x1 s8 s9 x4 s10) ∗ owns (c : Thread nD τ) arg7 fullShare (outAdj x1)
            ∗ owns (c : Thread nD τ) arg8 fullShare s8 ∗ owns (c : Thread nD τ) arg9 fullShare s9 ∗ owns (c : Thread nD τ) arg10 fullShare s10) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  subst hf1; subst hf2; subst hf3; subst hf4; subst hf5; subst hf8; subst hf9; subst hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  isplitl [H7]
  · iexists _; isplitr
    swap; · iexact H7
    ipureintro
    exact View.read_writes_eq_canon _ _ _ (cover1 _)
  isplitl [H8]
  · iexists f8; isplitr; · ipureintro; rfl
    iexact H8
  isplitl [H9]
  · iexists f9; isplitr; · ipureintro; rfl
    iexact H9
  iexists f10; isplitr; · ipureintro; rfl
  iexact H10

end Cert.Kernel.Hand

end
-- ==== Proof.KBody1.lean ====
/-
  The second kernel's body, one grid point: it loads a 512 x 4096 block of rows of the (narrowed) adjacency, the whole
  4096 x 64 projected hidden layer and the 1 x 64 bias row, and stores tanh (block . G + bias) over its whole 512 x 64
  output block.  Stated for any float instance: what the output block holds afterwards is the one store's payload of
  the three loaded blocks.
-/
import proofs.«180878_g24567212934045_cont_8to1_979_11_alg».proof.Proof.Gen.Kernel.Launch
import proofs.«180878_g24567212934045_cont_8to1_979_11_alg».proof.Proof.Gen.Kernel.Skeleton
import proofs.«180878_g24567212934045_cont_8to1_979_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles: every access is a whole block -/

abbrev rB0 : Rect S512x4096 := Rect.unit (s := S512x4096) ![0, 0] S512x4096.size inb_S512x4096_S512x4096_0_0
abbrev rB1 : Rect S4096x64 := Rect.unit (s := S4096x64) ![0, 0] S4096x64.size inb_S4096x64_S4096x64_0_0
abbrev rB2 : Rect S1x64 := Rect.unit (s := S1x64) ![0, 0] S1x64.size inb_S1x64_S1x64_0_0
abbrev rB3 : Rect S512x64 := Rect.unit (s := S512x64) ![0, 0] S512x64.size inb_S512x64_S512x64_0_0

/-- The output block after the body: its one store, of the payload of the three loaded blocks. -/
def outB (x0 : Vec F S512x4096 .bf16) (x1 : Vec F S4096x64 .bf16) (x2 : Vec F S1x64 .f32) : Vec F S512x64 .f32 :=
  View.canon [⟨rB3, k1_pay1 (View.ld x0 rB0) (View.ld x1 rB1) (View.ld x2 rB2)⟩]

/-- The one store covers the block. -/
theorem coverB (p0 : Vec F S512x64 .f32) (y : S512x64.Idx) :
    ∃ pc ∈ ([⟨rB3, p0⟩] : List (View.Piece (Elt F) S512x64 .f32)), y ∈ pc.1.set :=
  View.cover_of_tiled [⟨rB3, p0⟩] S512x64.size (by rfl) y

set_option maxHeartbeats 1000000 in
/-- The body on whole staging memrefs: the three inputs at read contents, the output at anything; it ends with the inputs
    as they were and the output at `outB` of them. -/
theorem sound_kernelB1 (c : Dev nD) (E : Set ℕ) (i : grid1.Coords)
    (arg1 : Memref sig .tc .vmem S512x4096 .bf16) (harg1 : arg1.IsWhole) (arg2 : Memref sig .tc .vmem S4096x64 .bf16) (harg2 : arg2.IsWhole)
    (arg3 : Memref sig .tc .vmem S1x64 .f32) (harg3 : arg3.IsWhole) (arg4 : Memref sig .tc .vmem S512x64 .f32) (harg4 : arg4.IsWhole)
    (x0 : Vec F S512x4096 .bf16) (x1 : Vec F S4096x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB x0 x1 x2)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.Kernel.Hand

end
-- ==== Proof.KData.lean ====
/-
  The two pallas_calls' proof data, for any float instance and at a PARAMETER `V` (what the core's buffers hold when the
  call is entered): each window's block at a grid point read off its array; what each staging buffer holds after the
  body at each point; the invariant that rides from point to point; and the per-point body obligations.

  First call (16 points, blocks of 256 rows): the three scratch buffers are filled at the first point with the
  narrowed X, W1, W2 — whole arrays, so the same at every point — and only read afterwards; the invariant says so from
  the second point on (before the first point they hold anything).  The first output block after point t is `outG` of
  the adjacency's block t, the bias row and those scratch contents; the second is the adjacency's block narrowed.
  Second call (8 points, blocks of 512 rows): no scratch; the output block after point t is `outB` of its three
  input blocks.
-/
import proofs.«180878_g24567212934045_cont_8to1_979_11_alg».proof.Proof.Gen.Kernel.Launch
import proofs.«180878_g24567212934045_cont_8to1_979_11_alg».proof.Proof.Gen.Kernel.Skeleton
import proofs.«180878_g24567212934045_cont_8to1_979_11_alg».proof.Proof.Gen.Kernel.Points
import proofs.«180878_g24567212934045_cont_8to1_979_11_alg».proof.Proof.KBody0
import proofs.«180878_g24567212934045_cont_8to1_979_11_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The three scratch operands, whole buffers of the kernel's own. -/
abbrev scM8 : Memref sig .tc .vmem S4096x512 .bf16 := Memref.whole cc0_scratch0
abbrev scM9 : Memref sig .tc .vmem S512x4096 .bf16 := Memref.whole cc0_scratch1
abbrev scM10 : Memref sig .tc .vmem S4096x64 .bf16 := Memref.whole cc0_scratch2

/-- What the first point leaves in them: the narrowed whole arrays X, W1, W2 (windows 1, 2, 4 at the first point). -/
def S8 (c : Dev nD) : Vec F S4096x512 .bf16 := scX (iblk0 V c 1 t0_0)
def S9 (c : Dev nD) : Vec F S512x4096 .bf16 := scW1 (iblk0 V c 2 t0_0)
def S10 (c : Dev nD) : Vec F S4096x64 .bf16 := scW2 (iblk0 V c 4 t0_0)

/-- The core's scoped buffers that belong to neither the first call's windows nor its scratch (the second call's staging
    buffers), each at some contents: they ride through the first call untouched. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch operands as memrefs owned at some contents. -/
theorem PhiA0_eq (c : Dev nD) :
    (Pipeline.ΦA spec0 c : sProp 𝕄)
      = iprop(iprop((∃ d, owns (c : Thread nD τ) scM8 fullShare d) ∗ (∃ d, owns (c : Thread nD τ) scM9 fullShare d) ∗ (∃ d, owns (c : Thread nD τ) scM10 fullShare d) ∗ restB (F := F) c) ∗ (∃ r, prngReg c r)) := by
  unfold Pipeline.ΦA restB; rw [scopedRest0_eq]; simp only [scM8, scM9, scM10, owns_whole]; try rfl

/-- The invariant from the second point on: the scratch buffers at what the first point stored. -/
def PhiPos (c : Dev nD) : sProp 𝕄 :=
  iprop(iprop(owns (c : Thread nD τ) scM8 fullShare (S8 V c) ∗ owns (c : Thread nD τ) scM9 fullShare (S9 V c) ∗ owns (c : Thread nD τ) scM10 fullShare (S10 V c) ∗ restB (F := F) c) ∗ (∃ r, prngReg c r))

/-- The invariant before position `n`: the class's before the first point, `PhiPos` afterwards. -/
def PhiS (c : Dev nD) (n : ℕ) : sProp 𝕄 := if n = 0 then Pipeline.ΦA spec0 c else PhiPos V c

theorem PhiS_zero (c : Dev nD) : PhiS V c 0 = Pipeline.ΦA spec0 c := if_pos rfl
theorem PhiS_pos (c : Dev nD) (n : ℕ) (hn : n ≠ 0) : PhiS V c n = PhiPos V c := if_neg hn

/-- The first call's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outG (iblk0 V c 0 t) (S8 V c) (S9 V c) (iblk0 V c 3 t) (S10 V c)
    | ⟨6, _⟩ => outAdj (iblk0 V c 0 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outG (iblk0 V c 0 t) (S8 V c) (S9 V c) (iblk0 V c 3 t) (S10 V c) := by dsimp only [dat0]
theorem after0_6 (c : Dev nD) (t : Fin cfg0.N) : (dat0 V c).after 6 t = outAdj (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; the coordinate says which case the point is in; at the
    first point the invariant hands over the scratch buffers at anything and takes them back filled, at a later point it
    hands them over and takes them back as the first point left them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_pos V c _ (Nat.succ_ne_zero _),
    show (dat0 V c).Φ t.castSucc = PhiS V c t.val from rfl,
    after0_0, after0_1, after0_2, after0_3, after0_4, after0_5, after0_6]
  by_cases hz : t.val = 0
  · obtain rfl : t = t0_0 := Fin.ext hz
    rw [show PhiS V c (t0_0 : Fin cfg0.N).val = Pipeline.ΦA spec0 c from PhiS_zero V c, PhiA0_eq]
    unfold PhiPos S8 S9 S10
    iintro ⟨⟨⟨HS8, HS9, HS10, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernelA c Set.univ _ _ _ _ _ _ _ _ _ _ _ _ _ _ _ _ _ _ _ _ _ ((hcondA t0_0).mpr rfl) (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hrest Hg]
    · isplitr [Hg]
      · isplitl [HS8]; · iexact HS8
        isplitl [HS9]; · iexact HS9
        isplitl [HS10]; · iexact HS10
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold PhiPos
    iintro ⟨⟨⟨HS8, HS9, HS10, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernelB c Set.univ _ _ _ _ _ _ _ _ _ _ _ _ _ _ _ _ _ _ _ _ _ (fun h => hz ((hcondA t).mp h)) (iblk0 V c 0 t) (iblk0 V c 1 t) (iblk0 V c 2 t) (iblk0 V c 3 t) (iblk0 V c 4 t) (S8 V c) (S9 V c) (S10 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hrest Hg]
    · isplitr [Hg]
      · isplitl [HS8]; · iexact HS8
        isplitl [HS9]; · iexact HS9
        isplitl [HS10]; · iexact HS10
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS V c 0 from rfl, PhiS_zero V c]

/-- and after the last point the invariant gives the class's back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 16 := N_0; omega), PhiA0_eq]
  unfold PhiPos
  iintro ⟨⟨HS8, HS9, HS10, Hrest⟩, Hg⟩
  isplitr [Hg]
  · isplitl [HS8]; · iexists _; iexact HS8
    isplitl [HS9]; · iexists _; iexact HS9
    isplitl [HS10]; · iexists _; iexact HS10
    iexact Hrest
  iexact Hg

/-! # The second call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second call's proof data on core `c`: the class's invariant, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outB (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelB1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the whole program, for any float instance: @main is two reshapes on the host (the two bias vectors as rows),
  the first pallas_call, the second.  The core's unscoped buffers are followed from boundary to boundary — the launch
  memory, after the reshapes, after the first call (its two result arrays at what its write-backs leave), after the
  second call (the result array likewise) — and every weakly fair execution ends with each unscoped buffer at the last
  boundary's contents.  The frame claim (the six arguments end as launched) is read off that; so is the result array.
-/
import proofs.«180878_g24567212934045_cont_8to1_979_11_alg».proof.Proof.Gen.Kernel.Launch
import proofs.«180878_g24567212934045_cont_8to1_979_11_alg».proof.Proof.Gen.Kernel.Skeleton
import proofs.«180878_g24567212934045_cont_8to1_979_11_alg».proof.Proof.Gen.Kernel.Points
import proofs.«180878_g24567212934045_cont_8to1_979_11_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the two reshapes (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Hand

end
-- ==== Proof.KFrame.lean ====
/-
  The frame claim read off the run: no host operation and neither pallas_call writes an argument array (a call reads it
  through an input window or not at all), so at each argument the last boundary's contents walk back to the launch
  memory.  For any float instance.
-/
import proofs.«180878_g24567212934045_cont_8to1_979_11_alg».proof.Proof.Gen.Kernel.Launch
import proofs.«180878_g24567212934045_cont_8to1_979_11_alg».proof.Proof.Gen.Kernel.Skeleton
import proofs.«180878_g24567212934045_cont_8to1_979_11_alg».proof.Proof.Gen.Kernel.Points
import proofs.«180878_g24567212934045_cont_8to1_979_11_alg».proof.Proof.KRun
import proofs.«180878_g24567212934045_cont_8to1_979_11_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = m ((c : Thread nD τ).loc main_arg4) := V1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The same run, keeping the result array: it ends at the last boundary's contents. -/
theorem run_result : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v3 (by decide)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.Kernel.Hand

end
-- ==== Proof.KIBody0.lean ====
/-
  The first kernel's body, one grid point.  At the first point only it narrows the whole feature matrix X and the two
  weight matrices W1, W2 into three scratch buffers; at every point it narrows its 256 x 4096 block of rows of the
  adjacency into the second output block, and stores into the first output block the block's rows of
  max ((A_blk Xs) W1s + b1, 0) W2s, where Xs, W1s, W2s are what the scratch buffers hold.  Two cases, decided by the grid
  coordinate: the first point (the scratch buffers are filled, then read back) and every later point (they are
  read as the first point left them).  Stated for any float instance.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition, from the grid coordinate -/

/-- The body's `scf.if`: the coordinate is zero. -/
abbrev condA (i : grid0.Coords) : Prop := (Scalar.cmpi .ne (Scalar.extui (Scalar.cmpi .eq (BitVec.ofNat 32 (i 0).val) 0#32)) 0#32) = 1#1

/-- It holds at the first point only. -/
theorem hcondA : ∀ t : Fin cfg0.N, condA (grid0.coords t) ↔ t.val = 0 :=
  (by decide +kernel : ∀ t : Fin grid0.N, condA (grid0.coords t) ↔ t.val = 0)

/-! ## The body's rectangles: every access is a whole buffer -/

abbrev rA1 : Rect S256x4096 := Rect.unit (s := S256x4096) ![0, 0] S256x4096.size inb_S256x4096_S256x4096_0_0
abbrev rA2 : Rect S4096x512 := Rect.unit (s := S4096x512) ![0, 0] S4096x512.size inb_S4096x512_S4096x512_0_0
abbrev rA3 : Rect S512x4096 := Rect.unit (s := S512x4096) ![0, 0] S512x4096.size inb_S512x4096_S512x4096_0_0
abbrev rA4 : Rect S1x4096 := Rect.unit (s := S1x4096) ![0, 0] S1x4096.size inb_S1x4096_S1x4096_0_0
abbrev rA5 : Rect S4096x64 := Rect.unit (s := S4096x64) ![0, 0] S4096x64.size inb_S4096x64_S4096x64_0_0
abbrev rA6 : Rect S256x64 := Rect.unit (s := S256x64) ![0, 0] S256x64.size inb_S256x64_S256x64_0_0

/-! ## What the body leaves -/

/-- The narrowed feature matrix, as the first point stores it into the first scratch buffer. -/
def scX (x2 : Vec F S4096x512 .f32) : Vec F S4096x512 .bf16 := View.canon [⟨rA2, k0_pay1 (View.ld x2 rA2)⟩]
/-- The narrowed first weight matrix (second scratch buffer). -/
def scW1 (x3 : Vec F S512x4096 .f32) : Vec F S512x4096 .bf16 := View.canon [⟨rA3, k0_pay2 (View.ld x3 rA3)⟩]
/-- The narrowed second weight matrix (third scratch buffer). -/
def scW2 (x5 : Vec F S4096x64 .f32) : Vec F S4096x64 .bf16 := View.canon [⟨rA5, k0_pay3 (View.ld x5 rA5)⟩]

/-- The first output block after the body, from the adjacency block, the bias row and what the scratch buffers hold. -/
def outG (x1 : Vec F S256x4096 .f32) (s8 : Vec F S4096x512 .bf16) (s9 : Vec F S512x4096 .bf16) (x4 : Vec F S1x4096 .f32)
    (s10 : Vec F S4096x64 .bf16) : Vec F S256x64 .bf16 :=
  View.canon [⟨rA6, k0_pay5 (View.ld x1 rA1) (View.ld s8 rA2) (View.ld s9 rA3) (View.ld x4 rA4) (View.ld s10 rA5)⟩]

/-- The second output block after the body: the adjacency block narrowed. -/
def outAdj (x1 : Vec F S256x4096 .f32) : Vec F S256x4096 .bf16 := View.canon [⟨rA1, k0_pay4 (View.ld x1 rA1)⟩]

/-! ## One whole-buffer store covers its buffer -/

theorem cover1 (p0 : Vec F S256x4096 .bf16) (y : S256x4096.Idx) :
    ∃ pc ∈ ([⟨rA1, p0⟩] : List (View.Piece (Elt F) S256x4096 .bf16)), y ∈ pc.1.set :=
  View.cover_of_tiled [⟨rA1, p0⟩] S256x4096.size (by rfl) y
theorem cover2 (p0 : Vec F S4096x512 .bf16) (y : S4096x512.Idx) :
    ∃ pc ∈ ([⟨rA2, p0⟩] : List (View.Piece (Elt F) S4096x512 .bf16)), y ∈ pc.1.set :=
  View.cover_of_tiled [⟨rA2, p0⟩] S4096x512.size (by rfl) y
theorem cover3 (p0 : Vec F S512x4096 .bf16) (y : S512x4096.Idx) :
    ∃ pc ∈ ([⟨rA3, p0⟩] : List (View.Piece (Elt F) S512x4096 .bf16)), y ∈ pc.1.set :=
  View.cover_of_tiled [⟨rA3, p0⟩] S512x4096.size (by rfl) y
theorem cover5 (p0 : Vec F S4096x64 .bf16) (y : S4096x64.Idx) :
    ∃ pc ∈ ([⟨rA5, p0⟩] : List (View.Piece (Elt F) S4096x64 .bf16)), y ∈ pc.1.set :=
  View.cover_of_tiled [⟨rA5, p0⟩] S4096x64.size (by rfl) y
theorem cover6 (p0 : Vec F S256x64 .bf16) (y : S256x64.Idx) :
    ∃ pc ∈ ([⟨rA6, p0⟩] : List (View.Piece (Elt F) S256x64 .bf16)), y ∈ pc.1.set :=
  View.cover_of_tiled [⟨rA6, p0⟩] S256x64.size (by rfl) y

/-! ## The body's triple, case by case -/

set_option maxHeartbeats 2000000 in
/-- THE FIRST POINT: the five inputs at read contents, the outputs and the scratch buffers at anything; the body ends
    with the inputs as they were, the scratch buffers at the narrowed X, W1, W2 and the outputs at `outG` / `outAdj` of them. -/
theorem sound_kernelA (c : Dev nD) (E : Set ℕ) (i : grid0.Coords) (arg1 : Memref sig .tc .vmem S256x4096 .f32) (harg1 : arg1.IsWhole) (arg2 : Memref sig .tc .vmem S4096x512 .f32) (harg2 : arg2.IsWhole) (arg3 : Memref sig .tc .vmem S512x4096 .f32) (harg3 : arg3.IsWhole) (arg4 : Memref sig .tc .vmem S1x4096 .f32) (harg4 : arg4.IsWhole) (arg5 : Memref sig .tc .vmem S4096x64 .f32) (harg5 : arg5.IsWhole) (arg6 : Memref sig .tc .vmem S256x64 .bf16) (harg6 : arg6.IsWhole) (arg7 : Memref sig .tc .vmem S256x4096 .bf16) (harg7 : arg7.IsWhole) (arg8 : Memref sig .tc .vmem S4096x512 .bf16) (harg8 : arg8.IsWhole) (arg9 : Memref sig .tc .vmem S512x4096 .bf16) (harg9 : arg9.IsWhole) (arg10 : Memref sig .tc .vmem S4096x64 .bf16) (harg10 : arg10.IsWhole) (hc : condA i)
    (x1 : Vec F S256x4096 .f32) (x2 : Vec F S4096x512 .f32) (x3 : Vec F S512x4096 .f32) (x4 : Vec F S1x4096 .f32) (x5 : Vec F S4096x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outG x1 (scX x2) (scW1 x3) x4 (scW2 x5)) ∗ owns (c : Thread nD τ) arg7 fullShare (outAdj x1)
            ∗ owns (c : Thread nD τ) arg8 fullShare (scX x2) ∗ owns (c : Thread nD τ) arg9 fullShare (scW1 x3) ∗ owns (c : Thread nD τ) arg10 fullShare (scW2 x5)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1; subst hf2; subst hf3; subst hf4; subst hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.readCov_eq_canon_ld _ _ _ (cover2 _), View.readCov_eq_canon_ld _ _ _ (cover3 _), View.readCov_eq_canon_ld _ _ _ (cover5 _)]
    exact View.read_writes_eq_canon _ _ _ (cover6 _)
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover2 _)
  isplitl [H9]
  · iexists _; isplitr
    swap; · iexact H9
    ipureintro
    exact View.read_writes_eq_canon _ _ _ (cover3 _)
  iexists _; isplitr
  swap; · iexact H10
  ipureintro
  exact View.read_writes_eq_canon _ _ _ (cover5 _)

set_option maxHeartbeats 2000000 in
/-- A LATER POINT: the inputs and the scratch buffers at read contents, the outputs at anything; the body ends with all
    of them as they were and the outputs at `outG` / `outAdj`. -/
theorem sound_kernelB (c : Dev nD) (E : Set ℕ) (i : grid0.Coords) (arg1 : Memref sig .tc .vmem S256x4096 .f32) (harg1 : arg1.IsWhole) (arg2 : Memref sig .tc .vmem S4096x512 .f32) (harg2 : arg2.IsWhole) (arg3 : Memref sig .tc .vmem S512x4096 .f32) (harg3 : arg3.IsWhole) (arg4 : Memref sig .tc .vmem S1x4096 .f32) (harg4 : arg4.IsWhole) (arg5 : Memref sig .tc .vmem S4096x64 .f32) (harg5 : arg5.IsWhole) (arg6 : Memref sig .tc .vmem S256x64 .bf16) (harg6 : arg6.IsWhole) (arg7 : Memref sig .tc .vmem S256x4096 .bf16) (harg7 : arg7.IsWhole) (arg8 : Memref sig .tc .vmem S4096x512 .bf16) (harg8 : arg8.IsWhole) (arg9 : Memref sig .tc .vmem S512x4096 .bf16) (harg9 : arg9.IsWhole) (arg10 : Memref sig .tc .vmem S4096x64 .bf16) (harg10 : arg10.IsWhole) (hc : ¬condA i)
    (x1 : Vec F S256x4096 .f32) (x2 : Vec F S4096x512 .f32) (x3 : Vec F S512x4096 .f32) (x4 : Vec F S1x4096 .f32) (x5 : Vec F S4096x64 .f32)
    (s8 : Vec F S4096x512 .bf16) (s9 : Vec F S512x4096 .bf16) (s10 : Vec F S4096x64 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ owns (c : Thread nD τ) arg8 fullShare s8 ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outG x1 s8 s9 x4 s10) ∗ owns (c : Thread nD τ) arg7 fullShare (outAdj x1)
            ∗ owns (c : Thread nD τ) arg8 fullShare s8 ∗ owns (c : Thread nD τ) arg9 fullShare s9 ∗ owns (c : Thread nD τ) arg10 fullShare s10) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  subst hf1; subst hf2; subst hf3; subst hf4; subst hf5; subst hf8; subst hf9; subst hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  isplitl [H7]
  · iexists _; isplitr
    swap; · iexact H7
    ipureintro
    exact View.read_writes_eq_canon _ _ _ (cover1 _)
  isplitl [H8]
  · iexists f8; isplitr; · ipureintro; rfl
    iexact H8
  isplitl [H9]
  · iexists f9; isplitr; · ipureintro; rfl
    iexact H9
  iexists f10; isplitr; · ipureintro; rfl
  iexact H10

end Cert.KernelIdeal.Hand

end
-- ==== Proof.KIBody1.lean ====
/-
  The second kernel's body, one grid point: it loads a 512 x 4096 block of rows of the (narrowed) adjacency, the whole
  4096 x 64 projected hidden layer and the 1 x 64 bias row, and stores tanh (block . G + bias) over its whole 512 x 64
  output block.  Stated for any float instance: what the output block holds afterwards is the one store's payload of
  the three loaded blocks.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles: every access is a whole block -/

abbrev rB0 : Rect S512x4096 := Rect.unit (s := S512x4096) ![0, 0] S512x4096.size inb_S512x4096_S512x4096_0_0
abbrev rB1 : Rect S4096x64 := Rect.unit (s := S4096x64) ![0, 0] S4096x64.size inb_S4096x64_S4096x64_0_0
abbrev rB2 : Rect S1x64 := Rect.unit (s := S1x64) ![0, 0] S1x64.size inb_S1x64_S1x64_0_0
abbrev rB3 : Rect S512x64 := Rect.unit (s := S512x64) ![0, 0] S512x64.size inb_S512x64_S512x64_0_0

/-- The output block after the body: its one store, of the payload of the three loaded blocks. -/
def outB (x0 : Vec F S512x4096 .bf16) (x1 : Vec F S4096x64 .bf16) (x2 : Vec F S1x64 .f32) : Vec F S512x64 .f32 :=
  View.canon [⟨rB3, k1_pay1 (View.ld x0 rB0) (View.ld x1 rB1) (View.ld x2 rB2)⟩]

/-- The one store covers the block. -/
theorem coverB (p0 : Vec F S512x64 .f32) (y : S512x64.Idx) :
    ∃ pc ∈ ([⟨rB3, p0⟩] : List (View.Piece (Elt F) S512x64 .f32)), y ∈ pc.1.set :=
  View.cover_of_tiled [⟨rB3, p0⟩] S512x64.size (by rfl) y

set_option maxHeartbeats 1000000 in
/-- The body on whole staging memrefs: the three inputs at read contents, the output at anything; it ends with the inputs
    as they were and the output at `outB` of them. -/
theorem sound_kernelB1 (c : Dev nD) (E : Set ℕ) (i : grid1.Coords)
    (arg1 : Memref sig .tc .vmem S512x4096 .bf16) (harg1 : arg1.IsWhole) (arg2 : Memref sig .tc .vmem S4096x64 .bf16) (harg2 : arg2.IsWhole)
    (arg3 : Memref sig .tc .vmem S1x64 .f32) (harg3 : arg3.IsWhole) (arg4 : Memref sig .tc .vmem S512x64 .f32) (harg4 : arg4.IsWhole)
    (x0 : Vec F S512x4096 .bf16) (x1 : Vec F S4096x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outB x0 x1 x2)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.KernelIdeal.Hand

end
-- ==== Proof.KIData.lean ====
/-
  The two pallas_calls' proof data, for any float instance and at a PARAMETER `V` (what the core's buffers hold when the
  call is entered): each window's block at a grid point read off its array; what each staging buffer holds after the
  body at each point; the invariant that rides from point to point; and the per-point body obligations.

  First call (16 points, blocks of 256 rows): the three scratch buffers are filled at the first point with the
  narrowed X, W1, W2 — whole arrays, so the same at every point — and only read afterwards; the invariant says so from
  the second point on (before the first point they hold anything).  The first output block after point t is `outG` of
  the adjacency's block t, the bias row and those scratch contents; the second is the adjacency's block narrowed.
  Second call (8 points, blocks of 512 rows): no scratch; the output block after point t is `outB` of its three
  input blocks.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import proofs.«180878_g24567212934045_cont_8to1_979_11_alg».proof.Proof.KIBody0
import proofs.«180878_g24567212934045_cont_8to1_979_11_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The three scratch operands, whole buffers of the kernel's own. -/
abbrev scM8 : Memref sig .tc .vmem S4096x512 .bf16 := Memref.whole cc0_scratch0
abbrev scM9 : Memref sig .tc .vmem S512x4096 .bf16 := Memref.whole cc0_scratch1
abbrev scM10 : Memref sig .tc .vmem S4096x64 .bf16 := Memref.whole cc0_scratch2

/-- What the first point leaves in them: the narrowed whole arrays X, W1, W2 (windows 1, 2, 4 at the first point). -/
def S8 (c : Dev nD) : Vec F S4096x512 .bf16 := scX (iblk0 V c 1 t0_0)
def S9 (c : Dev nD) : Vec F S512x4096 .bf16 := scW1 (iblk0 V c 2 t0_0)
def S10 (c : Dev nD) : Vec F S4096x64 .bf16 := scW2 (iblk0 V c 4 t0_0)

/-- The core's scoped buffers that belong to neither the first call's windows nor its scratch (the second call's staging
    buffers), each at some contents: they ride through the first call untouched. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch operands as memrefs owned at some contents. -/
theorem PhiA0_eq (c : Dev nD) :
    (Pipeline.ΦA spec0 c : sProp 𝕄)
      = iprop(iprop((∃ d, owns (c : Thread nD τ) scM8 fullShare d) ∗ (∃ d, owns (c : Thread nD τ) scM9 fullShare d) ∗ (∃ d, owns (c : Thread nD τ) scM10 fullShare d) ∗ restB (F := F) c) ∗ (∃ r, prngReg c r)) := by
  unfold Pipeline.ΦA restB; rw [scopedRest0_eq]; simp only [scM8, scM9, scM10, owns_whole]; try rfl

/-- The invariant from the second point on: the scratch buffers at what the first point stored. -/
def PhiPos (c : Dev nD) : sProp 𝕄 :=
  iprop(iprop(owns (c : Thread nD τ) scM8 fullShare (S8 V c) ∗ owns (c : Thread nD τ) scM9 fullShare (S9 V c) ∗ owns (c : Thread nD τ) scM10 fullShare (S10 V c) ∗ restB (F := F) c) ∗ (∃ r, prngReg c r))

/-- The invariant before position `n`: the class's before the first point, `PhiPos` afterwards. -/
def PhiS (c : Dev nD) (n : ℕ) : sProp 𝕄 := if n = 0 then Pipeline.ΦA spec0 c else PhiPos V c

theorem PhiS_zero (c : Dev nD) : PhiS V c 0 = Pipeline.ΦA spec0 c := if_pos rfl
theorem PhiS_pos (c : Dev nD) (n : ℕ) (hn : n ≠ 0) : PhiS V c n = PhiPos V c := if_neg hn

/-- The first call's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outG (iblk0 V c 0 t) (S8 V c) (S9 V c) (iblk0 V c 3 t) (S10 V c)
    | ⟨6, _⟩ => outAdj (iblk0 V c 0 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outG (iblk0 V c 0 t) (S8 V c) (S9 V c) (iblk0 V c 3 t) (S10 V c) := by dsimp only [dat0]
theorem after0_6 (c : Dev nD) (t : Fin cfg0.N) : (dat0 V c).after 6 t = outAdj (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; the coordinate says which case the point is in; at the
    first point the invariant hands over the scratch buffers at anything and takes them back filled, at a later point it
    hands them over and takes them back as the first point left them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_pos V c _ (Nat.succ_ne_zero _),
    show (dat0 V c).Φ t.castSucc = PhiS V c t.val from rfl,
    after0_0, after0_1, after0_2, after0_3, after0_4, after0_5, after0_6]
  by_cases hz : t.val = 0
  · obtain rfl : t = t0_0 := Fin.ext hz
    rw [show PhiS V c (t0_0 : Fin cfg0.N).val = Pipeline.ΦA spec0 c from PhiS_zero V c, PhiA0_eq]
    unfold PhiPos S8 S9 S10
    iintro ⟨⟨⟨HS8, HS9, HS10, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernelA c Set.univ _ _ _ _ _ _ _ _ _ _ _ _ _ _ _ _ _ _ _ _ _ ((hcondA t0_0).mpr rfl) (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hrest Hg]
    · isplitr [Hg]
      · isplitl [HS8]; · iexact HS8
        isplitl [HS9]; · iexact HS9
        isplitl [HS10]; · iexact HS10
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold PhiPos
    iintro ⟨⟨⟨HS8, HS9, HS10, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernelB c Set.univ _ _ _ _ _ _ _ _ _ _ _ _ _ _ _ _ _ _ _ _ _ (fun h => hz ((hcondA t).mp h)) (iblk0 V c 0 t) (iblk0 V c 1 t) (iblk0 V c 2 t) (iblk0 V c 3 t) (iblk0 V c 4 t) (S8 V c) (S9 V c) (S10 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hrest Hg]
    · isplitr [Hg]
      · isplitl [HS8]; · iexact HS8
        isplitl [HS9]; · iexact HS9
        isplitl [HS10]; · iexact HS10
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS V c 0 from rfl, PhiS_zero V c]

/-- and after the last point the invariant gives the class's back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 16 := N_0; omega), PhiA0_eq]
  unfold PhiPos
  iintro ⟨⟨HS8, HS9, HS10, Hrest⟩, Hg⟩
  isplitr [Hg]
  · isplitl [HS8]; · iexists _; iexact HS8
    isplitl [HS9]; · iexists _; iexact HS9
    isplitl [HS10]; · iexists _; iexact HS10
    iexact Hrest
  iexact Hg

/-! # The second call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second call's proof data on core `c`: the class's invariant, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outB (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelB1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the whole program, for any float instance: @main is two reshapes on the host (the two bias vectors as rows),
  the first pallas_call, the second.  The core's unscoped buffers are followed from boundary to boundary — the launch
  memory, after the reshapes, after the first call (its two result arrays at what its write-backs leave), after the
  second call (the result array likewise) — and every weakly fair execution ends with each unscoped buffer at the last
  boundary's contents.  The frame claim (the six arguments end as launched) is read off that; so is the result array.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import proofs.«180878_g24567212934045_cont_8to1_979_11_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the two reshapes (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Hand

end
-- ==== Proof.KIFrame.lean ====
/-
  The frame claim read off the run: no host operation and neither pallas_call writes an argument array (a call reads it
  through an input window or not at all), so at each argument the last boundary's contents walk back to the launch
  memory.  For any float instance.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import proofs.«180878_g24567212934045_cont_8to1_979_11_alg».proof.Proof.KIRun
import proofs.«180878_g24567212934045_cont_8to1_979_11_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = m ((c : Thread nD τ).loc main_arg4) := V1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The same run, keeping the result array: it ends at the last boundary's contents. -/
theorem run_result : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v3 (by decide)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.KernelIdeal.Hand

end
-- ==== Proof.Spec.lean ====
/-
  The mathematics both programs compute, as functions of the six argument arrays read as extended reals.

  A two-layer graph convolution: with A the 4096 x 4096 adjacency, X the 4096 x 512 features, W1 (512 x 4096),
  b1 (4096), W2 (4096 x 64), b2 (64),

      H = max (A X W1 + b1, 0),      G = H W2,      out = tanh (A G + b2).

  The two programs differ only in how the triple product A X W1 is associated: the kernel forms (A X) W1, the
  reference A (X W1).  `hidK` and `hidR` are the two hidden layers; everything after the hidden layer is shared
  (`proj`, `out`).  The literal zero of the rectifier is kept as the word both programs print.
-/
import Idealize.ShloMosaic.PureOps.Ideal
import Idealize.ShloMosaic.Lib.ValueIdx

noncomputable section

open scoped BigOperators

namespace Cert.Spec

open Idealize.ShloMosaic Idealize.ShloMosaic.ValueIdx

abbrev S4096x512 : Shape := ⟨2, ![4096, 512]⟩
abbrev S4096x4096 : Shape := ⟨2, ![4096, 4096]⟩
abbrev S512x4096 : Shape := ⟨2, ![512, 4096]⟩
abbrev S4096 : Shape := ⟨1, ![4096]⟩
abbrev S4096x64 : Shape := ⟨2, ![4096, 64]⟩
abbrev S64 : Shape := ⟨1, ![64]⟩

/-- The rectifier's zero, as the 32-bit word both programs print. -/
abbrev zero32 : EReal := Ideal.ofBits .f32 0x00000000#32

/-- Entry (r, p) of A X. -/
def ax (adj : S4096x4096.Idx → EReal) (x : S4096x512.Idx → EReal) (r : Fin 4096) (p : Fin 512) : EReal :=
  ∑ q : Fin 4096, adj (ix2 r q) * x (ix2 q p)

/-- Entry (q, l) of X W1. -/
def xw (x : S4096x512.Idx → EReal) (W1 : S512x4096.Idx → EReal) (q : Fin 4096) (l : Fin 4096) : EReal :=
  ∑ p : Fin 512, x (ix2 q p) * W1 (ix2 p l)

/-- The hidden layer as the kernel associates it: max ((A X) W1 + b1, 0) at (r, l). -/
def hidK (adj : S4096x4096.Idx → EReal) (x : S4096x512.Idx → EReal) (W1 : S512x4096.Idx → EReal) (b1 : S4096.Idx → EReal)
    (r : Fin 4096) (l : Fin 4096) : EReal :=
  max ((∑ p : Fin 512, ax adj x r p * W1 (ix2 p l)) + b1 (ix1 l)) zero32

/-- The hidden layer as the reference associates it: max (A (X W1) + b1, 0) at (r, l). -/
def hidR (adj : S4096x4096.Idx → EReal) (x : S4096x512.Idx → EReal) (W1 : S512x4096.Idx → EReal) (b1 : S4096.Idx → EReal)
    (r : Fin 4096) (l : Fin 4096) : EReal :=
  max ((∑ q : Fin 4096, adj (ix2 r q) * xw x W1 q l) + b1 (ix1 l)) zero32

/-- Entry (r, j) of H W2 for a hidden layer H. -/
def proj (hid : Fin 4096 → Fin 4096 → EReal) (W2 : S4096x64.Idx → EReal) (r : Fin 4096) (j : Fin 64) : EReal :=
  ∑ l : Fin 4096, hid r l * W2 (ix2 l j)

/-- The result array from the projected hidden layer G: tanh (A G + b2), index by index. -/
def out (adj : S4096x4096.Idx → EReal) (g : Fin 4096 → Fin 64 → EReal) (b2 : S64.Idx → EReal) : S4096x64.Idx → EReal :=
  fun i => Ideal.tanh ((∑ k : Fin 4096, adj (ix2 (i 0) k) * g k (i 1)) + b2 (ix1 (i 1)))

/-- What the kernel computes. -/
def GK (x : S4096x512.Idx → EReal) (adj : S4096x4096.Idx → EReal) (W1 : S512x4096.Idx → EReal) (b1 : S4096.Idx → EReal)
    (W2 : S4096x64.Idx → EReal) (b2 : S64.Idx → EReal) : S4096x64.Idx → EReal :=
  out adj (proj (hidK adj x W1 b1) W2) b2

/-- What the reference computes. -/
def GR (x : S4096x512.Idx → EReal) (adj : S4096x4096.Idx → EReal) (W1 : S512x4096.Idx → EReal) (b1 : S4096.Idx → EReal)
    (W2 : S4096x64.Idx → EReal) (b2 : S64.Idx → EReal) : S4096x64.Idx → EReal :=
  out adj (proj (hidR adj x W1 b1) W2) b2

end Cert.Spec

end
-- ==== Proof.PayIdeal.lean ====
/-
  The two kernels' arithmetic read at an index, over the extended reals.

  Each stored value of a kernel body is a pure term over the vectors the body loaded.  Over the extended reals a
  change of float format is the identity and a reshape to the same shape is the identity, so the four copied
  blocks read back as themselves; a product accumulated into the zero array is the sum over the contracted
  coordinate; a row broadcast reads the row's entry; the rectifier is max against the printed zero word.  So the
  first kernel's projected block at (p, j) is

      sum_l max ((sum_q' (sum_q A[p,q] X[q,q']) W1[q',l]) + b1[0,l], 0) * W2[l,j]

  and the second kernel's block at (p, j) is tanh ((sum_k A[p,k] G[k,j]) + b2[0,j]).
-/
import proofs.«180878_g24567212934045_cont_8to1_979_11_alg».proof.Proof.Spec
import proofs.«180878_g24567212934045_cont_8to1_979_11_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdeal

open Cert.KernelIdeal Cert.KernelIdeal.Gen Idealize.ShloMosaic Idealize.ShloMosaic.ValueIdx

/-- A plain two-dimensional product (rows by contraction, contraction by columns) accumulated into the zero array,
    read at (p, j): the sum over the contracted coordinate of the row entry times the column entry. The four
    hypotheses read the two operand indices' coordinates at an output index and a contraction index. -/
theorem matmul_zero_ix2 {m kk n : Nat} {φ₁ φ₂ : FTy}
    (D : DotDims ⟨2, ![m, kk]⟩ ⟨2, ![kk, n]⟩ ⟨2, ![m, n]⟩)
    (hr : D.contr.rank = 1) (hs : D.contr.size ⟨0, by omega⟩ = kk)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (a : FVec Ideal ⟨2, ![m, kk]⟩ φ₁) (b : FVec Ideal ⟨2, ![kk, n]⟩ φ₂) (p : Fin m) (j : Fin n) :
    matmul (F := Ideal) D none a b (constant (F := Ideal) ⟨2, ![m, n]⟩ .f32 0x00000000#32) (ix2 p j)
      = ∑ k : Fin kk, a (ix2 p k) * b (ix2 k j) := by
  refine (Ideal.matmul_constant_zero_apply D none a b (ix2 p j)).trans ?_
  rw [← Equiv.sum_comp (contrEquiv1 D kk hr hs).symm]
  refine Finset.sum_congr rfl fun k _ => ?_
  have hk := contrEquiv1_symm_val D kk hr hs k
  have el : D.lhsIdx (ix2 p j) ((contrEquiv1 D kk hr hs).symm k) = ix2 p k :=
    funext fun c => Fin.ext (by
      match c with
      | ⟨0, _⟩ => exact hl0 _ _
      | ⟨1, _⟩ => exact (hl1 _ _).trans hk)
  have er : D.rhsIdx (ix2 p j) ((contrEquiv1 D kk hr hs).symm k) = ix2 k j :=
    funext fun c => Fin.ext (by
      match c with
      | ⟨0, _⟩ => exact (hr0 _ _).trans hk
      | ⟨1, _⟩ => exact hr1 _ _)
  rw [el, er]

/-- The first kernel's first product, 256 x 4096 by 4096 x 512 into zero, at (p, j). -/
theorem mm_256_4096_512 {φ₁ φ₂ : FTy} (a : FVec Ideal S256x4096 φ₁) (b : FVec Ideal S4096x512 φ₂) (p : Fin 256) (j : Fin 512) :
    matmul (F := Ideal) dot_S256x4096_S4096x512_S256x512_1_0_0_1_n_n none a b
        (constant (F := Ideal) S256x512 .f32 0x00000000#32) (ix2 p j)
      = ∑ k : Fin 4096, a (ix2 p k) * b (ix2 k j) :=
  matmul_zero_ix2 dot_S256x4096_S4096x512_S256x512_1_0_0_1_n_n rfl rfl
    (fun i q => by
      unfold DotDims.lhsIdx
      rw [dif_neg (show ¬(0 : Fin S256x4096.rank) ∈ dot_S256x4096_S4096x512_S256x512_1_0_0_1_n_n.lhsBatch by decide),
        dif_pos (show (0 : Fin S256x4096.rank) ∈ dot_S256x4096_S4096x512_S256x512_1_0_0_1_n_n.lhsNonContracting by decide)]
      rfl)
    (fun i q => dot_S256x4096_S4096x512_S256x512_1_0_0_1_n_n.lhsIdx_val_of_single rfl i q)
    (fun i q => dot_S256x4096_S4096x512_S256x512_1_0_0_1_n_n.rhsIdx_val_of_single rfl i q)
    (fun i q => by
      unfold DotDims.rhsIdx
      rw [dif_neg (show ¬(1 : Fin S4096x512.rank) ∈ dot_S256x4096_S4096x512_S256x512_1_0_0_1_n_n.rhsBatch by decide),
        dif_pos (show (1 : Fin S4096x512.rank) ∈ dot_S256x4096_S4096x512_S256x512_1_0_0_1_n_n.rhsNonContracting by decide)]
      rfl)
    a b p j

/-- The first kernel's second product, 256 x 512 by 512 x 4096 into zero, at (p, j). -/
theorem mm_256_512_4096 {φ₁ φ₂ : FTy} (a : FVec Ideal S256x512 φ₁) (b : FVec Ideal S512x4096 φ₂) (p : Fin 256) (j : Fin 4096) :
    matmul (F := Ideal) dot_S256x512_S512x4096_S256x4096_1_0_0_1_n_n none a b
        (constant (F := Ideal) S256x4096 .f32 0x00000000#32) (ix2 p j)
      = ∑ k : Fin 512, a (ix2 p k) * b (ix2 k j) :=
  matmul_zero_ix2 dot_S256x512_S512x4096_S256x4096_1_0_0_1_n_n rfl rfl
    (fun i q => by
      unfold DotDims.lhsIdx
      rw [dif_neg (show ¬(0 : Fin S256x512.rank) ∈ dot_S256x512_S512x4096_S256x4096_1_0_0_1_n_n.lhsBatch by decide),
        dif_pos (show (0 : Fin S256x512.rank) ∈ dot_S256x512_S512x4096_S256x4096_1_0_0_1_n_n.lhsNonContracting by decide)]
      rfl)
    (fun i q => dot_S256x512_S512x4096_S256x4096_1_0_0_1_n_n.lhsIdx_val_of_single rfl i q)
    (fun i q => dot_S256x512_S512x4096_S256x4096_1_0_0_1_n_n.rhsIdx_val_of_single rfl i q)
    (fun i q => by
      unfold DotDims.rhsIdx
      rw [dif_neg (show ¬(1 : Fin S512x4096.rank) ∈ dot_S256x512_S512x4096_S256x4096_1_0_0_1_n_n.rhsBatch by decide),
        dif_pos (show (1 : Fin S512x4096.rank) ∈ dot_S256x512_S512x4096_S256x4096_1_0_0_1_n_n.rhsNonContracting by decide)]
      rfl)
    a b p j

/-- The first kernel's third product, 256 x 4096 by 4096 x 64 into zero, at (p, j). -/
theorem mm_256_4096_64 {φ₁ φ₂ : FTy} (a : FVec Ideal S256x4096 φ₁) (b : FVec Ideal S4096x64 φ₂) (p : Fin 256) (j : Fin 64) :
    matmul (F := Ideal) dot_S256x4096_S4096x64_S256x64_1_0_0_1_n_n none a b
        (constant (F := Ideal) S256x64 .f32 0x00000000#32) (ix2 p j)
      = ∑ k : Fin 4096, a (ix2 p k) * b (ix2 k j) :=
  matmul_zero_ix2 dot_S256x4096_S4096x64_S256x64_1_0_0_1_n_n rfl rfl
    (fun i q => by
      unfold DotDims.lhsIdx
      rw [dif_neg (show ¬(0 : Fin S256x4096.rank) ∈ dot_S256x4096_S4096x64_S256x64_1_0_0_1_n_n.lhsBatch by decide),
        dif_pos (show (0 : Fin S256x4096.rank) ∈ dot_S256x4096_S4096x64_S256x64_1_0_0_1_n_n.lhsNonContracting by decide)]
      rfl)
    (fun i q => dot_S256x4096_S4096x64_S256x64_1_0_0_1_n_n.lhsIdx_val_of_single rfl i q)
    (fun i q => dot_S256x4096_S4096x64_S256x64_1_0_0_1_n_n.rhsIdx_val_of_single rfl i q)
    (fun i q => by
      unfold DotDims.rhsIdx
      rw [dif_neg (show ¬(1 : Fin S4096x64.rank) ∈ dot_S256x4096_S4096x64_S256x64_1_0_0_1_n_n.rhsBatch by decide),
        dif_pos (show (1 : Fin S4096x64.rank) ∈ dot_S256x4096_S4096x64_S256x64_1_0_0_1_n_n.rhsNonContracting by decide)]
      rfl)
    a b p j

/-- The second kernel's product, 512 x 4096 by 4096 x 64 into zero, at (p, j). -/
theorem mm_512_4096_64 {φ₁ φ₂ : FTy} (a : FVec Ideal S512x4096 φ₁) (b : FVec Ideal S4096x64 φ₂) (p : Fin 512) (j : Fin 64) :
    matmul (F := Ideal) dot_S512x4096_S4096x64_S512x64_1_0_0_1_n_n none a b
        (constant (F := Ideal) S512x64 .f32 0x00000000#32) (ix2 p j)
      = ∑ k : Fin 4096, a (ix2 p k) * b (ix2 k j) :=
  matmul_zero_ix2 dot_S512x4096_S4096x64_S512x64_1_0_0_1_n_n rfl rfl
    (fun i q => by
      unfold DotDims.lhsIdx
      rw [dif_neg (show ¬(0 : Fin S512x4096.rank) ∈ dot_S512x4096_S4096x64_S512x64_1_0_0_1_n_n.lhsBatch by decide),
        dif_pos (show (0 : Fin S512x4096.rank) ∈ dot_S512x4096_S4096x64_S512x64_1_0_0_1_n_n.lhsNonContracting by decide)]
      rfl)
    (fun i q => dot_S512x4096_S4096x64_S512x64_1_0_0_1_n_n.lhsIdx_val_of_single rfl i q)
    (fun i q => dot_S512x4096_S4096x64_S512x64_1_0_0_1_n_n.rhsIdx_val_of_single rfl i q)
    (fun i q => by
      unfold DotDims.rhsIdx
      rw [dif_neg (show ¬(1 : Fin S4096x64.rank) ∈ dot_S512x4096_S4096x64_S512x64_1_0_0_1_n_n.rhsBatch by decide),
        dif_pos (show (1 : Fin S4096x64.rank) ∈ dot_S512x4096_S4096x64_S512x64_1_0_0_1_n_n.rhsNonContracting by decide)]
      rfl)
    a b p j

/-- The copied feature block reads back as itself: over the extended reals the change of format and the reshape to
    the same shape are identities. -/
theorem pay1_apply (v : Vec Ideal S4096x512 .f32) (i : S4096x512.Idx) : k0_pay1 (F := Ideal) v i = v i := by
  unfold k0_pay1
  rw [shapeCast_self]
  rfl

/-- The copied first weight block reads back as itself. -/
theorem pay2_apply (v : Vec Ideal S512x4096 .f32) (i : S512x4096.Idx) : k0_pay2 (F := Ideal) v i = v i := by
  unfold k0_pay2
  rw [shapeCast_self]
  rfl

/-- The copied second weight block reads back as itself. -/
theorem pay3_apply (v : Vec Ideal S4096x64 .f32) (i : S4096x64.Idx) : k0_pay3 (F := Ideal) v i = v i := by
  unfold k0_pay3
  rw [shapeCast_self]
  rfl

/-- The copied adjacency block reads back as itself: the change of format is the identity. -/
theorem pay4_apply (v : Vec Ideal S256x4096 .f32) (i : S256x4096.Idx) : k0_pay4 (F := Ideal) v i = v i := rfl

/-- The first kernel's projected block at (p, j): the rectified hidden row p, associated as (A X) W1, against
    column j of W2. -/
theorem pay5_apply (v3 : Vec Ideal S256x4096 .f32) (v6 : Vec Ideal S4096x512 .bf16) (v9 : Vec Ideal S512x4096 .bf16)
    (v11 : Vec Ideal S1x4096 .f32) (v18 : Vec Ideal S4096x64 .bf16) (p : Fin 256) (j : Fin 64) :
    k0_pay5 (F := Ideal) v3 v6 v9 v11 v18 (ix2 p j)
      = ∑ l : Fin 4096,
          max ((∑ q' : Fin 512, (∑ q : Fin 4096, v3 (ix2 p q) * v6 (ix2 q q')) * v9 (ix2 q' l)) + v11 (ix2 0 l))
            Cert.Spec.zero32 * v18 (ix2 l j) := by
  unfold k0_pay5 k0_pay4
  refine (truncf_apply (ψ := .bf16) (φ := .f32) _ bitsLt_bf16_f32 _).trans ?_
  refine (mm_256_4096_64 (φ₁ := .bf16) (φ₂ := .bf16) _ v18 p j).trans ?_
  refine Finset.sum_congr rfl fun l _ => ?_
  refine congrArg (· * v18 (ix2 l j)) ?_
  refine (truncf_apply (ψ := .bf16) (φ := .f32) _ bitsLt_bf16_f32 _).trans ?_
  refine (maximumf_apply _ _ _).trans ?_
  refine congrArg₂ max ?_ rfl
  refine (addf_apply _ _ _).trans ?_
  refine congrArg₂ (· + ·) ?_ ?_
  · refine (mm_256_512_4096 (φ₁ := .bf16) (φ₂ := .bf16) _ v9 p l).trans ?_
    refine Finset.sum_congr rfl fun q' _ => ?_
    refine congrArg (· * v9 (ix2 q' l)) ?_
    refine (truncf_apply (ψ := .bf16) (φ := .f32) _ bitsLt_bf16_f32 _).trans ?_
    refine (mm_256_4096_512 (φ₁ := .bf16) (φ₂ := .bf16) _ v6 p q').trans ?_
    rfl
  · rw [shapeCast_self]
    exact broadcastTo_1b_ab_apply v11 _ p l

/-- The second kernel's stored value at (p, j): tanh of a row of the first operand against a column of the second,
    plus the bias row's entry j. -/
theorem pay1'_apply (v0 : Vec Ideal S512x4096 .bf16) (v2 : Vec Ideal S4096x64 .bf16) (v5 : Vec Ideal S1x64 .f32)
    (p : Fin 512) (j : Fin 64) :
    k1_pay1 (F := Ideal) v0 v2 v5 (ix2 p j)
      = Ideal.tanh ((∑ k : Fin 4096, v0 (ix2 p k) * v2 (ix2 k j)) + v5 (ix2 0 j)) := by
  unfold k1_pay1
  rw [shapeCast_self, shapeCast_self, shapeCast_self]
  show Ideal.tanh (matmul (F := Ideal) dot_S512x4096_S4096x64_S512x64_1_0_0_1_n_n none v0 v2
      (constant (F := Ideal) S512x64 .f32 0x00000000#32) (ix2 p j)
    + broadcastTo S512x64 v5 broadcasts_S1x64_S512x64 (ix2 p j)) = _
  rw [mm_512_4096_64, broadcastTo_1b_ab_apply]

end Cert.KernelIdeal.PayIdeal

end
-- ==== Proof.KIValue0.lean ====
/-
  The first call's two result arrays after its sixteen points, as functions of the arrays the call finds.

  Point t reads rows 256 t .. 256 t + 255 of the adjacency A and the whole of X, W1, the bias row b1 and W2 (the
  last three through the buffers the first point fills and every later point reads back).  Over the extended reals
  a change of float format is the identity, so

      the narrowed copy of A ends holding A, and
      the first result ends holding  (H W2)[r, j] = sum_l max ((sum_q' (sum_q A[r,q] X[q,q']) W1[q',l]) + b1[0,l], 0) * W2[l,j],

  row r = 256 t + p being row p of point t's block, and the sixteen blocks covering the 4096 rows.
-/
import proofs.«180878_g24567212934045_cont_8to1_979_11_alg».proof.Proof.KIData
import proofs.«180878_g24567212934045_cont_8to1_979_11_alg».proof.Proof.PayIdeal
import proofs.«180878_g24567212934045_cont_8to1_979_11_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # The first call's two result arrays, as whole-array functions -/

theorem off00_c0 : (![0, 0] : Fin 2 → Nat) = fun _ => 0 := funext fun a => by fin_cases a <;> rfl

/-- The first call's index maps over its sixteen points: the adjacency window and the two result windows take block
    row t at point t; the whole-array windows stay at block (0, 0). -/
theorem idx_facts_c0 : ∀ t : Fin cfg0.N,
    win0_0.index t (0 : Fin 2) = t.val ∧ win0_0.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The adjacency's block at point t is rows 256 t .. 256 t + 255 of the adjacency. -/
theorem adj_blk_apply (c : Dev nD) (t : Fin cfg0.N) (x : S256x4096.Idx) (k : S4096x4096.Idx)
    (hk0 : (k 0).val = 256 * t.val + (x 0).val) (hk1 : (k 1).val = (x 1).val) :
    (iblk0 V c 0 t : Vec Ideal S256x4096 .f32) x = (V c main_arg1 : S4096x4096.Idx → Elt Ideal .f32) k := by
  obtain ⟨e0, e1, -⟩ := idx_facts_c0 t
  unfold iblk0
  rw [View.read_apply]
  show V c main_arg1 _ = V c main_arg1 _
  refine congrArg _ (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- The adjacency, as the array the narrowed copy ends holding. -/
def adjArr (c : Dev nD) : S4096x4096.Idx → Elt Ideal .bf16 := fun i => V c main_arg1 i

/-- What point t writes back to the narrowed adjacency is block t of the adjacency. -/
theorem flushed6_eq (c : Dev nD) (t : Fin cfg0.N) :
    (dat0 (F := Ideal) V c).flushed 6 t = ((cfg0.win 6).blk t).view.read (Elt Ideal) (adjArr V c) := by
  show (cfg0.win 6).cut (grid0.coords t) ((dat0 V c).after 6 t) = _
  rw [after0_6]
  unfold outAdj
  rw [View.canon_unit_zero off00_c0]
  simp only [View.ld_unit_zero (S := S256x4096) off00_c0]
  obtain ⟨-, -, -, -, e60, e61, -⟩ := idx_facts_c0 t
  funext j
  show k0_pay4 (F := Ideal) (iblk0 V c 0 t) j = V c main_arg1 (((cfg0.win 6).blk t).view.emb j)
  refine (PayIdeal.pay4_apply _ j).trans ?_
  refine adj_blk_apply V c t j _ ?_ ?_
  · show win0_6.index t (0 : Fin 2) * 256 + 1 * (j 0).val = 256 * t.val + (j 0).val; rw [e60]; omega
  · show win0_6.index t (1 : Fin 2) * 4096 + 1 * (j 1).val = (j 1).val; rw [e61]; omega

/-- An index of the narrowed adjacency is in point t's block iff each coordinate is in the block's range. -/
theorem mem_blk6 (t : Fin cfg0.N) (i : S4096x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v2_1).slice (win0_6.rect t)).set ↔ _
  rw [View.set_slice_whole, Rect.mem_set_unit]
  exact Iff.rfl

/-- Row r of the narrowed adjacency is in the block of point r / 256. -/
theorem rows_cover6 (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, e60, e61, -⟩ := idx_facts_c0 t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e60]; omega
  | ⟨1, _⟩ => show win0_6.index t (1 : Fin 2) * 4096 ≤ (i 1).val ∧ (i 1).val < win0_6.index t (1 : Fin 2) * 4096 + 4096; rw [e61]; omega

/-- The narrowed adjacency after the first call is the adjacency. -/
theorem arr6_final (c : Dev nD) (i : S4096x4096.Idx) :
    (dat0 (F := Ideal) V c).arrAt 6 cfg0.N i = V c main_arg1 i :=
  congrFun ((dat0 (F := Ideal) V c).arrAt_eq_of_cover 6 (adjArr V c) (fun t _ => flushed6_eq V c t) rows_cover6) i

/-! ## The projected hidden layer -/

/-- The feature window's block at every point is the whole feature array. -/
theorem x_blk_apply (c : Dev nD) (t : Fin cfg0.N) (i : S4096x512.Idx) :
    (iblk0 V c 1 t : Vec Ideal S4096x512 .f32) i = (V c main_arg0 : S4096x512.Idx → Elt Ideal .f32) i := by
  obtain ⟨-, -, -, -, -, -, e10, e11, e20, e21, e30, e31, e40, e41⟩ := idx_facts_c0 t
  unfold iblk0
  rw [View.read_apply]
  show V c main_arg0 _ = V c main_arg0 _
  refine congrArg _ (funext fun a => Fin.ext ?_)
  match a with
  | ⟨0, _⟩ => show win0_1.index t (0 : Fin 2) * 4096 + 1 * (i 0).val = (i 0).val; rw [e10]; omega
  | ⟨1, _⟩ => show win0_1.index t (1 : Fin 2) * 512 + 1 * (i 1).val = (i 1).val; rw [e11]; omega

/-- The first weight window's block at every point is the whole array. -/
theorem w1_blk_apply (c : Dev nD) (t : Fin cfg0.N) (i : S512x4096.Idx) :
    (iblk0 V c 2 t : Vec Ideal S512x4096 .f32) i = (V c main_arg2 : S512x4096.Idx → Elt Ideal .f32) i := by
  obtain ⟨-, -, -, -, -, -, e10, e11, e20, e21, e30, e31, e40, e41⟩ := idx_facts_c0 t
  unfold iblk0
  rw [View.read_apply]
  show V c main_arg2 _ = V c main_arg2 _
  refine congrArg _ (funext fun a => Fin.ext ?_)
  match a with
  | ⟨0, _⟩ => show win0_2.index t (0 : Fin 2) * 512 + 1 * (i 0).val = (i 0).val; rw [e20]; omega
  | ⟨1, _⟩ => show win0_2.index t (1 : Fin 2) * 4096 + 1 * (i 1).val = (i 1).val; rw [e21]; omega

/-- The bias row window's block at every point is the whole row. -/
theorem b1_blk_apply (c : Dev nD) (t : Fin cfg0.N) (i : S1x4096.Idx) :
    (iblk0 V c 3 t : Vec Ideal S1x4096 .f32) i = (V c main_v0 : S1x4096.Idx → Elt Ideal .f32) i := by
  obtain ⟨-, -, -, -, -, -, e10, e11, e20, e21, e30, e31, e40, e41⟩ := idx_facts_c0 t
  unfold iblk0
  rw [View.read_apply]
  show V c main_v0 _ = V c main_v0 _
  refine congrArg _ (funext fun a => Fin.ext ?_)
  match a with
  | ⟨0, _⟩ => show win0_3.index t (0 : Fin 2) * 1 + 1 * (i 0).val = (i 0).val; rw [e30]; omega
  | ⟨1, _⟩ => show win0_3.index t (1 : Fin 2) * 4096 + 1 * (i 1).val = (i 1).val; rw [e31]; omega

/-- The second weight window's block at every point is the whole array. -/
theorem w2_blk_apply (c : Dev nD) (t : Fin cfg0.N) (i : S4096x64.Idx) :
    (iblk0 V c 4 t : Vec Ideal S4096x64 .f32) i = (V c main_arg4 : S4096x64.Idx → Elt Ideal .f32) i := by
  obtain ⟨-, -, -, -, -, -, e10, e11, e20, e21, e30, e31, e40, e41⟩ := idx_facts_c0 t
  unfold iblk0
  rw [View.read_apply]
  show V c main_arg4 _ = V c main_arg4 _
  refine congrArg _ (funext fun a => Fin.ext ?_)
  match a with
  | ⟨0, _⟩ => show win0_4.index t (0 : Fin 2) * 4096 + 1 * (i 0).val = (i 0).val; rw [e40]; omega
  | ⟨1, _⟩ => show win0_4.index t (1 : Fin 2) * 64 + 1 * (i 1).val = (i 1).val; rw [e41]; omega

/-- What the first point leaves in the first carried buffer is the feature array. -/
theorem S8_apply (c : Dev nD) (i : S4096x512.Idx) : S8 V c i = V c main_arg0 i := by
  unfold S8 scX
  rw [View.canon_unit_zero off00_c0]
  simp only [View.ld_unit_zero (S := S4096x512) off00_c0]
  exact (PayIdeal.pay1_apply (iblk0 V c 1 t0_0) i).trans (x_blk_apply V c t0_0 i)

/-- What it leaves in the second is the first weight array. -/
theorem S9_apply (c : Dev nD) (i : S512x4096.Idx) : S9 V c i = V c main_arg2 i := by
  unfold S9 scW1
  rw [View.canon_unit_zero off00_c0]
  simp only [View.ld_unit_zero (S := S512x4096) off00_c0]
  exact (PayIdeal.pay2_apply (iblk0 V c 2 t0_0) i).trans (w1_blk_apply V c t0_0 i)

/-- What it leaves in the third is the second weight array. -/
theorem S10_apply (c : Dev nD) (i : S4096x64.Idx) : S10 V c i = V c main_arg4 i := by
  unfold S10 scW2
  rw [View.canon_unit_zero off00_c0]
  simp only [View.ld_unit_zero (S := S4096x64) off00_c0]
  exact (PayIdeal.pay3_apply (iblk0 V c 4 t0_0) i).trans (w2_blk_apply V c t0_0 i)

/-- Row p of point t's blocks is row 256 t + p of the arrays. -/
def rowOf (t : Fin cfg0.N) (p : Fin 256) : Fin 4096 :=
  ⟨256 * t.val + p.val, by have ht := t.isLt; have hN : cfg0.N = 16 := N_0; omega⟩

/-- The adjacency's block at (p, q) is the adjacency at (256 t + p, q). -/
theorem adj_blk_ix2 (c : Dev nD) (t : Fin cfg0.N) (p : Fin 256) (q : Fin 4096) :
    (iblk0 V c 0 t : Vec Ideal S256x4096 .f32) (ix2 p q) = (V c main_arg1 : S4096x4096.Idx → Elt Ideal .f32) (ix2 (rowOf t p) q) :=
  adj_blk_apply V c t (ix2 p q) (ix2 (rowOf t p) q) rfl rfl

/-- The projected hidden layer H W2, with H = max ((A X) W1 + b1, 0), as the array the first result ends holding. -/
def projArr (c : Dev nD) : S4096x64.Idx → Elt Ideal .bf16 := fun i =>
  Cert.Spec.proj (Cert.Spec.hidK (V c main_arg1) (V c main_arg0) (V c main_arg2) (fun i => V c main_v0 (ix2 0 (i 0))))
    (V c main_arg4) (i 0) (i 1)

/-- What point t writes back to the first result is block t of the projected hidden layer. -/
theorem flushed5_eq (c : Dev nD) (t : Fin cfg0.N) :
    (dat0 (F := Ideal) V c).flushed 5 t = ((cfg0.win 5).blk t).view.read (Elt Ideal) (projArr V c) := by
  show (cfg0.win 5).cut (grid0.coords t) ((dat0 V c).after 5 t) = _
  rw [after0_5]
  unfold outG
  rw [View.canon_unit_zero off00_c0]
  simp only [View.ld_unit_zero (S := S256x4096) off00_c0, View.ld_unit_zero (S := S4096x512) off00_c0,
    View.ld_unit_zero (S := S512x4096) off00_c0, View.ld_unit_zero (S := S1x4096) off00_c0,
    View.ld_unit_zero (S := S4096x64) off00_c0]
  obtain ⟨-, -, e50, e51, -⟩ := idx_facts_c0 t
  funext y
  obtain ⟨p, q, rfl⟩ : ∃ (p : Fin 256) (q : Fin 64), y = ix2 p q := ⟨y 0, y 1, eq_ix2 y⟩
  show k0_pay5 (F := Ideal) (iblk0 V c 0 t) (S8 V c) (S9 V c) (iblk0 V c 3 t) (S10 V c) (ix2 p q)
    = projArr V c (((cfg0.win 5).blk t).view.emb (ix2 p q))
  have hr : ((cfg0.win 5).blk t).view.emb (ix2 p q) = (ix2 (rowOf t p) q : S4096x64.Idx) :=
    funext fun a => Fin.ext (by
      match a with
      | ⟨0, _⟩ => show win0_5.index t (0 : Fin 2) * 256 + 1 * p.val = 256 * t.val + p.val; rw [e50]; omega
      | ⟨1, _⟩ => show win0_5.index t (1 : Fin 2) * 64 + 1 * q.val = q.val; rw [e51]; omega)
  rw [hr]
  refine (PayIdeal.pay5_apply (iblk0 V c 0 t) (S8 V c) (S9 V c) (iblk0 V c 3 t) (S10 V c) p q).trans ?_
  show _ = Cert.Spec.proj (Cert.Spec.hidK (V c main_arg1) (V c main_arg0) (V c main_arg2) (fun i => V c main_v0 (ix2 0 (i 0))))
    (V c main_arg4) (rowOf t p) q
  unfold Cert.Spec.proj Cert.Spec.hidK Cert.Spec.ax
  simp only [adj_blk_ix2 V c t p, S8_apply V c, S9_apply V c, S10_apply V c, b1_blk_apply V c t]

/-- An index of the first result is in point t's block iff each coordinate is in the block's range. -/
theorem mem_blk5 (t : Fin cfg0.N) (i : S4096x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v2_0).slice (win0_5.rect t)).set ↔ _
  rw [View.set_slice_whole, Rect.mem_set_unit]
  exact Iff.rfl

/-- Row r of the first result is in the block of point r / 256. -/
theorem rows_cover5 (i : S4096x64.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, e50, e51, -⟩ := idx_facts_c0 t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; rw [e50]; omega
  | ⟨1, _⟩ => show win0_5.index t (1 : Fin 2) * 64 ≤ (i 1).val ∧ (i 1).val < win0_5.index t (1 : Fin 2) * 64 + 64; rw [e51]; omega

/-- The first result after the first call is the projected hidden layer, the hidden layer associated as (A X) W1. -/
theorem arr5_final (c : Dev nD) (r : Fin 4096) (j : Fin 64) :
    (dat0 (F := Ideal) V c).arrAt 5 cfg0.N (ix2 r j)
      = Cert.Spec.proj (Cert.Spec.hidK (V c main_arg1) (V c main_arg0) (V c main_arg2) (fun i => V c main_v0 (ix2 0 (i 0))))
          (V c main_arg4) r j :=
  congrFun ((dat0 (F := Ideal) V c).arrAt_eq_of_cover 5 (projArr V c) (fun t _ => flushed5_eq V c t) rows_cover5) (ix2 r j)

end Cert.KernelIdeal.Hand

end
-- ==== Proof.KIValue1.lean ====
/-
  The second call's result array, index by index.

  The second call walks 8 grid points; at point t it reads rows 512 t .. 512 t + 511 of the (narrowed) adjacency A',
  the whole projected hidden layer G' (4096 x 64) and the bias row b (1 x 64), and writes rows 512 t .. 512 t + 511
  of the result: entry (p, j) of the block is tanh ((sum_k A'(512 t + p, k) G'(k, j)) + b(0, j)).  The 8 blocks tile the
  4096 x 64 result (row r lies in block r / 512), so the array ends holding, at (r, j),

      tanh ((sum_k A'(r, k) G'(k, j)) + b(0, j)).
-/
import proofs.«180878_g24567212934045_cont_8to1_979_11_alg».proof.Proof.KIData
import proofs.«180878_g24567212934045_cont_8to1_979_11_alg».proof.Proof.PayIdeal
import proofs.«180878_g24567212934045_cont_8to1_979_11_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The offsets of every access of the body are zero. -/
theorem zero_off2 : (![0, 0] : Fin 2 → Nat) = fun _ => 0 := funext fun a => by fin_cases a <;> rfl

/-- The block indices over the grid: the adjacency's and the result's blocks move down one block of rows per point;
    the projected hidden layer and the bias row are whole. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 512 t + p of the array. -/
def row1 (t : Fin cfg1.N) (p : Fin 512) : Fin 4096 :=
  ⟨t.val * 512 + p.val, by have h := t.isLt; have h8 : cfg1.N = 8 := N_1; omega⟩

/-- Entry (r, j) of tanh (A' G' + b) for a 4096 x 4096 array A', a 4096 x 64 array G' and a 1 x 64 row b. -/
def res1 (A : S4096x4096.Idx → EReal) (G : S4096x64.Idx → EReal) (b : S1x64.Idx → EReal) (r : Fin 4096) (j : Fin 64) : EReal :=
  Ideal.tanh ((∑ k : Fin 4096, A (ix2 r k) * G (ix2 k j)) + b (ix2 0 j))

theorem res1_def (A : S4096x4096.Idx → EReal) (G : S4096x64.Idx → EReal) (b : S1x64.Idx → EReal) (r : Fin 4096) (j : Fin 64) :
    res1 A G b r j = Ideal.tanh ((∑ k : Fin 4096, A (ix2 r k) * G (ix2 k j)) + b (ix2 0 j)) := rfl

/-- The result array as one function of the three arrays the call reads. -/
def Res1 (c : Dev nD) : S4096x64.Idx → EReal :=
  fun i => res1 (V c main_v2_1) (V c main_v2_0) (V c main_v1) (i 0) (i 1)

/-! ## The three input blocks read at an index -/

theorem blk1_0_read (c : Dev nD) (t : Fin cfg1.N) (p : Fin 512) (k : Fin 4096) :
    iblk1 V c 0 t (ix2 p k) = V c main_v2_1 (ix2 (row1 t p) k) := by
  obtain ⟨e0, e1, -⟩ := block_index1 t
  show V c main_v2_1 (((cfg1.win 0).blk t).view.emb (ix2 p k)) = V c main_v2_1 (ix2 (row1 t p) k)
  refine congrArg _ (funext fun a => Fin.ext ?_)
  match a with
  | ⟨0, _⟩ => show win1_0.index t (0 : Fin 2) * 512 + 1 * p.val = t.val * 512 + p.val; omega
  | ⟨1, _⟩ => show win1_0.index t (1 : Fin 2) * 4096 + 1 * k.val = k.val; omega

theorem blk1_1_read (c : Dev nD) (t : Fin cfg1.N) (k : Fin 4096) (j : Fin 64) :
    iblk1 V c 1 t (ix2 k j) = V c main_v2_0 (ix2 k j) := by
  obtain ⟨-, -, e2, e3, -⟩ := block_index1 t
  show V c main_v2_0 (((cfg1.win 1).blk t).view.emb (ix2 k j)) = V c main_v2_0 (ix2 k j)
  refine congrArg _ (funext fun a => Fin.ext ?_)
  match a with
  | ⟨0, _⟩ => show win1_1.index t (0 : Fin 2) * 4096 + 1 * k.val = k.val; omega
  | ⟨1, _⟩ => show win1_1.index t (1 : Fin 2) * 64 + 1 * j.val = j.val; omega

theorem blk1_2_read (c : Dev nD) (t : Fin cfg1.N) (u : Fin 1) (j : Fin 64) :
    iblk1 V c 2 t (ix2 u j) = V c main_v1 (ix2 u j) := by
  obtain ⟨-, -, -, -, e4, e5, -⟩ := block_index1 t
  show V c main_v1 (((cfg1.win 2).blk t).view.emb (ix2 u j)) = V c main_v1 (ix2 u j)
  refine congrArg _ (funext fun a => Fin.ext ?_)
  match a with
  | ⟨0, _⟩ => show win1_2.index t (0 : Fin 2) * 1 + 1 * u.val = u.val; omega
  | ⟨1, _⟩ => show win1_2.index t (1 : Fin 2) * 64 + 1 * j.val = j.val; omega

/-! ## What a point writes back -/

/-- Point t writes block t of `Res1`. -/
theorem flushed1_3_eq (c : Dev nD) (t : Fin cfg1.N) :
    (dat1 V c).flushed 3 t = ((cfg1.win 3).blk t).view.read (Elt Ideal) (Res1 V c) := by
  show (cfg1.win 3).cut (grid1.coords t) ((dat1 V c).after 3 t) = _
  rw [after1_3]
  unfold outB
  rw [View.canon_unit_zero zero_off2]
  simp only [View.ld_unit_zero (S := S512x4096) zero_off2, View.ld_unit_zero (S := S4096x64) zero_off2,
    View.ld_unit_zero (S := S1x64) zero_off2]
  funext y
  obtain ⟨p, j, rfl⟩ : ∃ (p : Fin 512) (j : Fin 64), y = ix2 p j := ⟨y 0, y 1, eq_ix2 y⟩
  obtain ⟨-, -, -, -, -, -, e6, e7⟩ := block_index1 t
  have hemb : ((cfg1.win 3).blk t).view.emb (ix2 p j) = ix2 (row1 t p) j :=
    funext fun a => Fin.ext (by
      match a with
      | ⟨0, _⟩ => show win1_3.index t (0 : Fin 2) * 512 + 1 * p.val = t.val * 512 + p.val; omega
      | ⟨1, _⟩ => show win1_3.index t (1 : Fin 2) * 64 + 1 * j.val = j.val; omega)
  show k1_pay1 (F := Ideal) (iblk1 V c 0 t) (iblk1 V c 1 t) (iblk1 V c 2 t) (ix2 p j)
    = Res1 V c (((cfg1.win 3).blk t).view.emb (ix2 p j))
  rw [hemb]
  refine (PayIdeal.pay1'_apply _ _ _ p j).trans ?_
  show _ = res1 (V c main_v2_1) (V c main_v2_0) (V c main_v1) (row1 t p) j
  unfold res1
  simp only [blk1_0_read, blk1_1_read, blk1_2_read]

/-! ## The blocks tile the array -/

/-- An index of the array is in point t's block iff each coordinate is in the block's range on its axis. -/
theorem mem_blk1_3 (t : Fin cfg1.N) (i : S4096x64.Idx) :
    i ∈ ((cfg1.win 3).blk t).view.set ↔ ∀ a : Fin 2, win1_3.index t a * S512x64.size a ≤ (i a).val
      ∧ (i a).val < win1_3.index t a * S512x64.size a + S512x64.size a := by
  show i ∈ ((View.whole main_v3).slice (win1_3.rect t)).set ↔ _
  rw [View.set_slice_whole, Rect.mem_set_unit]
  exact Iff.rfl

/-- Row r lies in block r / 512. -/
theorem cover1_3 (i : S4096x64.Idx) :
    ∃ t : Fin cfg1.N, (cfg1.win 3).flush t = true ∧ i ∈ ((cfg1.win 3).blk t).view.set := by
  have hi0 : (i 0).val < 4096 := (i 0).isLt
  have hi1 : (i 1).val < 64 := (i 1).isLt
  have h8 : cfg1.N = 8 := N_1
  obtain ⟨t, ht⟩ : ∃ t : Fin cfg1.N, t.val = (i 0).val / 512 := ⟨⟨(i 0).val / 512, by omega⟩, rfl⟩
  obtain ⟨-, -, -, -, -, -, e6, e7⟩ := block_index1 t
  refine ⟨t, flush1_3 t, ?_⟩
  rw [mem_blk1_3]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 64 ≤ (i 1).val ∧ (i 1).val < win1_3.index t (1 : Fin 2) * 64 + 64
    omega

/-! ## The array after the call -/

theorem arr3_eq (c : Dev nD) : (dat1 V c).arrAt 3 cfg1.N = Res1 V c :=
  (dat1 V c).arrAt_eq_of_cover 3 (Res1 V c) (fun t _ => flushed1_3_eq V c t) cover1_3

/-- The second call's result at (r, j). -/
theorem arr3_final (c : Dev nD) (r : Fin 4096) (j : Fin 64) :
    (dat1 (F := Ideal) V c).arrAt 3 cfg1.N (ix2 r j)
      = res1 (V c main_v2_1) (V c main_v2_0) (V c main_v1) r j := by
  rw [arr3_eq]
  rfl

end Cert.KernelIdeal.Hand

end
-- ==== Proof.KIHost.lean ====
/-
  What the two host reshapes leave in the buffers the first call reads.

  Before the first call the program reshapes the bias vector b1 (4096 entries) to a 1 x 4096 row and b2 (64 entries)
  to a 1 x 64 row; a reshape keeps the row-major order, so entry (0, l) of the row is entry l of the vector.  No other
  buffer is written: the four matrices are as launched.
-/
import proofs.«180878_g24567212934045_cont_8to1_979_11_alg».proof.Proof.Gen.KernelIdeal.Launch
import proofs.«180878_g24567212934045_cont_8to1_979_11_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ) (c : Dev nD)

/-- The bias row of the hidden layer: entry (0, l) is entry l of b1. -/
theorem host_v0 (l : Fin 4096) :
    (StableHlo.after hostOps0 (fun b => m (c, b))) (Proc.devRef .tc main_v0) (ix2 0 l)
      = m ((c : Thread nD τ).loc main_arg3) (ix1 l) := by
  after_results
  exact ValueIdx.shapeCast_a_1a_apply _ _ 0 l

/-- The bias row of the result: entry (0, j) is entry j of b2. -/
theorem host_v1 (j : Fin 64) :
    (StableHlo.after hostOps0 (fun b => m (c, b))) (Proc.devRef .tc main_v1) (ix2 0 j)
      = m ((c : Thread nD τ).loc main_arg5) (ix1 j) := by
  after_results
  exact ValueIdx.shapeCast_a_1a_apply _ _ 0 j

/-- The reshapes write neither X, -/
theorem host_arg0 : (StableHlo.after hostOps0 (fun b => m (c, b))) (Proc.devRef .tc main_arg0)
    = m ((c : Thread nD τ).loc main_arg0) := V1_of m c main_arg0 (by decide)
/-- nor A, -/
theorem host_arg1 : (StableHlo.after hostOps0 (fun b => m (c, b))) (Proc.devRef .tc main_arg1)
    = m ((c : Thread nD τ).loc main_arg1) := V1_of m c main_arg1 (by decide)
/-- nor W1, -/
theorem host_arg2 : (StableHlo.after hostOps0 (fun b => m (c, b))) (Proc.devRef .tc main_arg2)
    = m ((c : Thread nD τ).loc main_arg2) := V1_of m c main_arg2 (by decide)
/-- nor W2. -/
theorem host_arg4 : (StableHlo.after hostOps0 (fun b => m (c, b))) (Proc.devRef .tc main_arg4)
    = m ((c : Thread nD τ).loc main_arg4) := V1_of m c main_arg4 (by decide)

end Cert.KernelIdeal.Hand

end
-- ==== Proof.KIResult.lean ====
/-
  The kernel's result array, at the ideal values, as one function of the six argument arrays.  The second call's
  result rows are tanh (A' G' + b2') of what it finds in the first call's two result arrays and the reshaped bias; the first
  call's are A itself (narrowing is the identity on extended reals) and G = max ((A X) W1 + b1, 0) W2; the two host
  reshapes only lay the bias vectors out as rows.  Composed: `Cert.Spec.GK` of the launch contents.
-/
import proofs.«180878_g24567212934045_cont_8to1_979_11_alg».proof.Proof.Gen.KernelIdeal.Launch
import proofs.«180878_g24567212934045_cont_8to1_979_11_alg».proof.Proof.Gen.KernelIdeal.Skeleton
import proofs.«180878_g24567212934045_cont_8to1_979_11_alg».proof.Proof.Gen.KernelIdeal.Points
import proofs.«180878_g24567212934045_cont_8to1_979_11_alg».proof.Proof.KIFrame
import proofs.«180878_g24567212934045_cont_8to1_979_11_alg».proof.Proof.KIValue0
import proofs.«180878_g24567212934045_cont_8to1_979_11_alg».proof.Proof.KIValue1
import proofs.«180878_g24567212934045_cont_8to1_979_11_alg».proof.Proof.KIHost
import proofs.«180878_g24567212934045_cont_8to1_979_11_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The bias row the first call finds is the first bias vector. -/
theorem bias1_row (c : Dev nD) :
    (fun i : S4096.Idx => V1 m c main_v0 (ix2 0 (i 0))) = (m ((c : Thread nD τ).loc main_arg3)) :=
  funext fun i => (host_v0 m c (i 0)).trans (congrArg _ (eq_ix1 i).symm)

/-- The first call's second result array, as the second call finds it, is the adjacency. -/
theorem adj_found (c : Dev nD) (i : S4096x4096.Idx) : V2 m c main_v2_1 i = (m ((c : Thread nD τ).loc main_arg1)) i :=
  (congrFun (W2_arr m c 6) i).trans ((arr6_final (V1 m) c i).trans (congrFun (host_arg1 m c) i))

/-- The first call's first result array, as the second call finds it, is the projected hidden layer. -/
theorem proj_found (c : Dev nD) (k : Fin 4096) (j : Fin 64) :
    V2 m c main_v2_0 (ix2 k j)
      = Cert.Spec.proj (Cert.Spec.hidK (m ((c : Thread nD τ).loc main_arg1)) (m ((c : Thread nD τ).loc main_arg0)) (m ((c : Thread nD τ).loc main_arg2)) (m ((c : Thread nD τ).loc main_arg3))) (m ((c : Thread nD τ).loc main_arg4)) k j := by
  refine (congrFun (W2_arr m c 5) (ix2 k j)).trans ((arr5_final (V1 m) c k j).trans ?_)
  rw [bias1_row m c, show V1 m c main_arg1 = (m ((c : Thread nD τ).loc main_arg1)) from host_arg1 m c, show V1 m c main_arg0 = (m ((c : Thread nD τ).loc main_arg0)) from host_arg0 m c,
    show V1 m c main_arg2 = (m ((c : Thread nD τ).loc main_arg2)) from host_arg2 m c, show V1 m c main_arg4 = (m ((c : Thread nD τ).loc main_arg4)) from host_arg4 m c]

/-- The bias row the second call finds is the second bias vector. -/
theorem bias2_found (c : Dev nD) (j : Fin 64) : V2 m c main_v1 (ix2 0 j) = (m ((c : Thread nD τ).loc main_arg5)) (ix1 j) :=
  (congrFun (W2_of_ne m c main_v1 (by decide)) (ix2 0 j)).trans (host_v1 m c j)

/-- THE KERNEL'S RESULT: the last boundary's contents at the result array are `GK` of the launch contents. -/
theorem kernel_result (c : Dev nD) :
    W3 m c (Proc.devRef .tc main_v3)
      = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, j, rfl⟩ : ∃ (r : Fin 4096) (j : Fin 64), i = ix2 r j := ⟨i 0, i 1, eq_ix2 i⟩
  refine (congrFun (W3_arr m c 3) (ix2 r j)).trans ((arr3_final (V2 m) c r j).trans ?_)
  rw [res1_def, bias2_found m c j]
  simp only [adj_found m c, proj_found m c]
  rfl

end Cert.KernelIdeal.Hand

end
-- ==== Proof.RefRead.lean ====
import proofs.«180878_g24567212934045_cont_8to1_979_11_alg».proof.Proof.Gen.ReferenceIdeal.Read

/-! The reference's run, read one operation at a time (the generated modules), re-exported for the hand modules. -/
-- ==== Proof.RefValue.lean ====
/-
  The reference program's result, read as the shared specification.

  The reference computes, index by index,
      tanh (1 * (sum_k A(r,k) * (sum_l max ((sum_q A(k,q) * (sum_p X(q,p) W1(p,l))) + b1(l), 0) * W2(l,j)) + b2(j))),
  which is `Cert.Spec.GR` once the multiplication by the literal one is removed.  Each operation of the program
  is read at an index `ix2 r j` with literal coordinate types, so that every index function of the
  reading lemmas computes by cases on the axis.
-/
import proofs.«180878_g24567212934045_cont_8to1_979_11_alg».proof.Proof.Spec
import proofs.«180878_g24567212934045_cont_8to1_979_11_alg».proof.Proof.RefRead

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.StableHlo

/-- The 32-bit word 0x3F800000 denotes the real number one. -/
theorem ofBits_one32 : Ideal.ofBits .f32 0x3F800000#32 = 1 := by
  simp [Ideal.ofBits, Ideal.ieee, -EReal.coe_mul]; norm_num

/-! ### The index functions of the four products and of the broadcasts, at an index given by its coordinates -/

theorem lidx0 (q l : Fin 4096) (p : Fin 512) : lidx_main_v0 (ix2 q l) p = ix2 q p := by
  funext a; match a with | ⟨0, _⟩ => rfl | ⟨1, _⟩ => rfl
theorem ridx0 (q l : Fin 4096) (p : Fin 512) : ridx_main_v0 (ix2 q l) p = ix2 p l := by
  funext a; match a with | ⟨0, _⟩ => rfl | ⟨1, _⟩ => rfl
theorem lidx1 (r l q : Fin 4096) : lidx_main_v1 (ix2 r l) q = ix2 r q := by
  funext a; match a with | ⟨0, _⟩ => rfl | ⟨1, _⟩ => rfl
theorem ridx1 (r l q : Fin 4096) : ridx_main_v1 (ix2 r l) q = ix2 q l := by
  funext a; match a with | ⟨0, _⟩ => rfl | ⟨1, _⟩ => rfl
theorem lidx7 (r : Fin 4096) (j : Fin 64) (l : Fin 4096) : lidx_main_v7 (ix2 r j) l = ix2 r l := by
  funext a; match a with | ⟨0, _⟩ => rfl | ⟨1, _⟩ => rfl
theorem ridx7 (r : Fin 4096) (j : Fin 64) (l : Fin 4096) : ridx_main_v7 (ix2 r j) l = ix2 l j := by
  funext a; match a with | ⟨0, _⟩ => rfl | ⟨1, _⟩ => rfl
theorem lidx8 (r : Fin 4096) (j : Fin 64) (k : Fin 4096) : lidx_main_v8 (ix2 r j) k = ix2 r k := by
  funext a; match a with | ⟨0, _⟩ => rfl | ⟨1, _⟩ => rfl
theorem ridx8 (r : Fin 4096) (j : Fin 64) (k : Fin 4096) : ridx_main_v8 (ix2 r j) k = ix2 k j := by
  funext a; match a with | ⟨0, _⟩ => rfl | ⟨1, _⟩ => rfl
theorem idx23 (r l : Fin 4096) : idx_main_v2 (idx_main_v3 (ix2 r l)) = ix1 l := by
  funext a; match a with | ⟨0, _⟩ => rfl
theorem idx910 (r : Fin 4096) (j : Fin 64) : idx_main_v9 (idx_main_v10 (ix2 r j)) = ix1 j := by
  funext a; match a with | ⟨0, _⟩ => rfl

variable (x : FVec Ideal S4096x512 .f32) (adj : FVec Ideal S4096x4096 .f32) (W1 : FVec Ideal S512x4096 .f32)
  (b1 : FVec Ideal S4096 .f32) (W2 : FVec Ideal S4096x64 .f32) (b2 : FVec Ideal S64 .f32)

/-- X W1 at (q, l). -/
theorem v0_at (q l : Fin 4096) : val_main_v0 (F := Ideal) x W1 (ix2 q l) = Cert.Spec.xw x W1 q l := by
  rw [val_main_v0_apply]
  unfold Cert.Spec.xw
  refine Finset.sum_congr rfl fun p _ => ?_
  rw [lidx0, ridx0]

/-- A (X W1) at (r, l). -/
theorem v1_at (r l : Fin 4096) :
    val_main_v1 (F := Ideal) x adj W1 (ix2 r l) = ∑ q : Fin 4096, adj (ix2 r q) * Cert.Spec.xw x W1 q l := by
  rw [val_main_v1_apply]
  refine Finset.sum_congr rfl fun q _ => ?_
  rw [lidx1, ridx1, v0_at]

/-- The bias row b1, broadcast over the rows, at (r, l). -/
theorem v3_at (r l : Fin 4096) : val_main_v3 (F := Ideal) b1 (ix2 r l) = b1 (ix1 l) := by
  rw [val_main_v3_apply, val_main_v2_apply, idx23]

/-- The rectifier's zero at every index. -/
theorem v5_at (i : S4096x4096.Idx) : val_main_v5 (F := Ideal) i = Cert.Spec.zero32 := by
  rw [val_main_v5_apply, val_main_cst_apply]; rfl

/-- The hidden layer at (r, l). -/
theorem v6_at (r l : Fin 4096) :
    val_main_v6 (F := Ideal) x adj W1 b1 (ix2 r l) = Cert.Spec.hidR adj x W1 b1 r l := by
  rw [val_main_v6_apply, val_main_v4_apply, v1_at, v3_at, v5_at, Ideal.maximumf_def, Ideal.addf_def]
  rfl

/-- H W2 at (r, j). -/
theorem v7_at (r : Fin 4096) (j : Fin 64) :
    val_main_v7 (F := Ideal) x adj W1 b1 W2 (ix2 r j) = Cert.Spec.proj (Cert.Spec.hidR adj x W1 b1) W2 r j := by
  rw [val_main_v7_apply]
  unfold Cert.Spec.proj
  refine Finset.sum_congr rfl fun l _ => ?_
  rw [lidx7, ridx7, v6_at]

/-- A (H W2) at (r, j). -/
theorem v8_at (r : Fin 4096) (j : Fin 64) :
    val_main_v8 (F := Ideal) x adj W1 b1 W2 (ix2 r j)
      = ∑ k : Fin 4096, adj (ix2 r k) * Cert.Spec.proj (Cert.Spec.hidR adj x W1 b1) W2 k j := by
  rw [val_main_v8_apply]
  refine Finset.sum_congr rfl fun k _ => ?_
  rw [lidx8, ridx8, v7_at]

/-- The bias row b2, broadcast over the rows, at (r, j). -/
theorem v10_at (r : Fin 4096) (j : Fin 64) : val_main_v10 (F := Ideal) b2 (ix2 r j) = b2 (ix1 j) := by
  rw [val_main_v10_apply, val_main_v9_apply, idx910]

/-- The literal one at every index. -/
theorem v12_at (i : S4096x64.Idx) : val_main_v12 (F := Ideal) i = 1 := by
  rw [val_main_v12_apply, val_main_cst_0_apply, Ideal.ofBits_def, ofBits_one32]

/-- The result at (r, j). -/
theorem v14_at (r : Fin 4096) (j : Fin 64) :
    val_main_v14 (F := Ideal) x adj W1 b1 W2 b2 (ix2 r j) = Cert.Spec.GR x adj W1 b1 W2 b2 (ix2 r j) := by
  rw [val_main_v14_apply, val_main_v13_apply, val_main_v11_apply, v12_at, v8_at, v10_at,
    Ideal.hostUnary_tanh_def, Ideal.mulf_def, Ideal.addf_def, one_mul]
  rfl

/-- The reference's composed term for its result is the specification `GR` of the six arguments. -/
theorem ref_eq :
    (Host.tanh (mulf (broadcastInDim S4096x64 ![] bcast_S_S4096x64 (constant S_ .f32 0x3F800000#32)) (addf (Host.dotGeneral dot_S4096x4096_S4096x64_S4096x64_1_0_0_1_n_n none (adj) (Host.dotGeneral dot_S4096x4096_S4096x64_S4096x64_1_0_0_1_n_n none (maximumf (addf (Host.dotGeneral dot_S4096x4096_S4096x4096_S4096x4096_1_0_0_1_n_n none (adj) (Host.dotGeneral dot_S4096x512_S512x4096_S4096x4096_1_0_0_1_n_n none (x) (W1))) (broadcastInDim S4096x4096 ![0, 1] bcast_S1x4096_S4096x4096_0_1 (broadcastInDim S1x4096 ![1] bcast_S4096_S1x4096_1 (b1)))) (broadcastInDim S4096x4096 ![] bcast_S_S4096x4096 (constant S_ .f32 0x00000000#32))) (W2))) (broadcastInDim S4096x64 ![0, 1] bcast_S1x64_S4096x64_0_1 (broadcastInDim S1x64 ![1] bcast_S64_S1x64_1 (b2))))) : FVec Ideal S4096x64 .f32)
      = Cert.Spec.GR x adj W1 b1 W2 b2 := by
  rw [val_main_v14_eq]
  funext i
  rw [eq_ix2 i]
  exact v14_at x adj W1 b1 W2 b2 (i 0) (i 1)

end Cert.ReferenceIdeal.RefValue

end
-- ==== Proof.Assoc.lean ====
/-
  The two associations of the triple product agree on real entries.

  For finite index sets and real a(q), x(q,p), w(p):
      sum_p (sum_q a(q) x(q,p)) w(p) = sum_q a(q) (sum_p x(q,p) w(p)),
  by distributing both products over the inner sums, exchanging the two sums, and associativity of the product.
  Over the extended reals multiplication does not distribute over addition in general (an infinite factor against
  a sum of opposite signs), so the law is proved in the reals and carried over through the coercion, which commutes
  with products and with finite sums.
-/
import proofs.«180878_g24567212934045_cont_8to1_979_11_alg».proof.Proof.Spec

noncomputable section

open scoped BigOperators

namespace Cert.Spec

open Idealize.ShloMosaic Idealize.ShloMosaic.ValueIdx

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Reassociation of a triple product of real arrays. -/
theorem assoc_real {α β : Type*} [Fintype α] [Fintype β] (a : α → ℝ) (x : α → β → ℝ) (w : β → ℝ) :
    ∑ p, (∑ q, a q * x q p) * w p = ∑ q, a q * ∑ p, x q p * w p := by
  simp only [Finset.sum_mul, Finset.mul_sum]
  rw [Finset.sum_comm]
  exact Finset.sum_congr rfl fun q _ => Finset.sum_congr rfl fun p _ => mul_assoc _ _ _

/-- Reassociation of a triple product of extended-real arrays all of whose entries are real. -/
theorem assoc_ereal {α β : Type*} [Fintype α] [Fintype β] (a : α → EReal) (x : α → β → EReal) (w : β → EReal)
    (ha : ∀ q, ∃ r : ℝ, a q = (r : EReal)) (hx : ∀ q p, ∃ r : ℝ, x q p = (r : EReal))
    (hw : ∀ p, ∃ r : ℝ, w p = (r : EReal)) :
    ∑ p, (∑ q, a q * x q p) * w p = ∑ q, a q * ∑ p, x q p * w p := by
  choose a' ha using ha
  choose x' hx using hx
  choose w' hw using hw
  obtain rfl : a = fun q => (a' q : EReal) := funext ha
  obtain rfl : x = fun q p => (x' q p : EReal) := funext fun q => funext fun p => hx q p
  obtain rfl : w = fun p => (w' p : EReal) := funext hw
  simp only [← EReal.coe_mul, ← coe_finset_sum]
  exact congrArg _ (assoc_real a' x' w')

/-- The hidden layer does not depend on how A X W1 is associated, when A, X and W1 have real entries. -/
theorem hidK_eq_hidR (adj : S4096x4096.Idx → EReal) (x : S4096x512.Idx → EReal) (W1 : S512x4096.Idx → EReal)
    (b1 : S4096.Idx → EReal)
    (hadj : ∀ i, ∃ r : ℝ, adj i = (r : EReal)) (hx : ∀ i, ∃ r : ℝ, x i = (r : EReal))
    (hW1 : ∀ i, ∃ r : ℝ, W1 i = (r : EReal)) :
    hidK adj x W1 b1 = hidR adj x W1 b1 := by
  funext r l
  unfold hidK hidR ax xw
  exact congrArg (fun s => max (s + b1 (ix1 l)) zero32)
    (assoc_ereal (fun q : Fin 4096 => adj (ix2 r q)) (fun (q : Fin 4096) (p : Fin 512) => x (ix2 q p))
      (fun p : Fin 512 => W1 (ix2 p l)) (fun q => hadj _) (fun q p => hx _) (fun p => hW1 _))

/-- The two programs' specifications agree when A, X and W1 have real entries. -/
theorem GK_eq_GR (x : S4096x512.Idx → EReal) (adj : S4096x4096.Idx → EReal) (W1 : S512x4096.Idx → EReal)
    (b1 : S4096.Idx → EReal) (W2 : S4096x64.Idx → EReal) (b2 : S64.Idx → EReal)
    (hadj : ∀ i, ∃ r : ℝ, adj i = (r : EReal)) (hx : ∀ i, ∃ r : ℝ, x i = (r : EReal))
    (hW1 : ∀ i, ∃ r : ℝ, W1 i = (r : EReal)) :
    GK x adj W1 b1 W2 b2 = GR x adj W1 b1 W2 b2 := by
  unfold GK GR
  rw [hidK_eq_hidR adj x W1 b1 hadj hx hW1]

end Cert.Spec

end
-- ==== Proof.Finite.lean ====
/-
  From the finiteness precondition to real entries.

  The precondition is the conjunction, over the six argument arrays, of "every entry e satisfies |e| < +inf",
  where |e| = max (e, -e) and +inf is the 32-bit word 0x7F800000.  An extended real e with max (e, -e) < +inf
  is neither -inf (then -e = +inf) nor +inf, hence is a real number.
-/
import proofs.«180878_g24567212934045_cont_8to1_979_11_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun _ _ => funext fun d => d.elim0⟩

/-- The 32-bit word 0x7F800000 denotes +inf. -/
theorem ofBits_inf32 : Ideal.ofBits .f32 0x7F800000#32 = ⊤ := by
  simp [Ideal.ofBits, Ideal.ieee]

/-- An extended real whose absolute value compares below the word of +inf is a real number. -/
theorem real_of_abs_lt (e : EReal)
    (h : Ideal.cmp .olt (max e (-e)) (Ideal.ofBits .f32 0x7F800000#32) = 1#1) : ∃ r : ℝ, e = (r : EReal) := by
  rw [ofBits_inf32] at h
  have hlt : max e (-e) < ⊤ := by
    by_contra hn
    simp [Ideal.cmp, hn] at h
  induction e using EReal.rec with
  | bot => simp at hlt
  | coe r => exact ⟨r, rfl⟩
  | top => simp at hlt

/-- One array: if the reduction by `and` of the entrywise test |e| < +inf is 1, every entry is real. -/
theorem real_of_all {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a) (broadcastInDim s ![] bc (constant S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 h i)

/-- The precondition makes every entry of the first three arrays (X, A, W1) a real number. -/
theorem real_of_pre [Facts] (a0 : FVec Ideal S4096x512 .f32) (a1 : FVec Ideal S4096x4096 .f32)
    (a2 : FVec Ideal S512x4096 .f32) (a3 : FVec Ideal S4096 .f32) (a4 : FVec Ideal S4096x64 .f32)
    (a5 : FVec Ideal S64 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn, fn_part1, andi] at h0
  simp only [IntOp.andi_eq_one] at h0
  obtain ⟨⟨⟨⟨⟨e0, e1⟩, e2⟩, _⟩, _⟩, _⟩ := h0
  exact ⟨real_of_all a0 _ _ _ e0, real_of_all a1 _ _ _ e1, real_of_all a2 _ _ _ e2⟩

end Cert.Finite

end
-- ==== Proof.Claims.lean ====
/-
  The certificate's five claims.  The three frames: each kernel program by the run of its two pallas_calls, the
  reference by its run.  The idealization rewrote nothing, so `preserves` is trivial.  The algebraic claim: the
  kernel's result array is tanh (A G + b2) with G = max ((A X) W1 + b1, 0) W2, the reference's the same with A (X W1);
  the two agree because every entry of A, X and W1 is a real number under the precondition, where a triple product
  of matrices may be associated either way.
-/
import proofs.«180878_g24567212934045_cont_8to1_979_11_alg».proof.Defs
import proofs.«180878_g24567212934045_cont_8to1_979_11_alg».proof.Proof.KFrame
import proofs.«180878_g24567212934045_cont_8to1_979_11_alg».proof.Proof.KIFrame
import proofs.«180878_g24567212934045_cont_8to1_979_11_alg».proof.Proof.KIResult
import proofs.«180878_g24567212934045_cont_8to1_979_11_alg».proof.Proof.RefValue
import proofs.«180878_g24567212934045_cont_8to1_979_11_alg».proof.Proof.Assoc
import proofs.«180878_g24567212934045_cont_8to1_979_11_alg».proof.Proof.Finite
import proofs.«180878_g24567212934045_cont_8to1_979_11_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Both idealized programs end with the result array at one function of the arguments: the kernel's run reads it as
    `GK` of its launch contents, the reference's as `GR` of its own, which agree with the kernel's; the precondition makes
    the entries of A, X, W1 real, and there the two associations of the triple product coincide. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_result m c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    obtain ⟨hx, hadj, hW1⟩ := Cert.Finite.real_of_pre _ _ _ _ _ _ (hpre c)
    rw [(h c).1, Cert.ReferenceIdeal.RefValue.ref_eq, (hagree c).1, (hagree c).2.1, (hagree c).2.2.1, (hagree c).2.2.2.1,
      (hagree c).2.2.2.2.1, (hagree c).2.2.2.2.2]
    exact (Cert.Spec.GK_eq_GR _ _ _ _ _ _ hadj hx hW1).symm

end Cert.Proof.Claims

end
-- ==== Proof.lean ====
/-
  The proof of `Cert.Claim`: a two-layer graph convolution, out = tanh (A (max (A X W1 + b1, 0) W2) + b2), computed by two
  pallas_calls — the first forms (A X) W1 block of rows by block of rows, keeping the narrowed X, W1, W2 in scratch buffers
  it fills at its first grid point, and also writes out a narrowed copy of A; the second multiplies that copy by the
  projected hidden layer, adds the bias and applies tanh — against a reference that forms A (X W1).

  Frames: each kernel program runs to the end, nothing faulting, its arguments unchanged — the run of @main through the
  two reshapes and the two calls, each call's body proved point by point (the first in two cases: the first grid point,
  where the scratch buffers are filled, and the later points, where they are read as the first point left them).
  The idealization rewrote nothing.  Values: at the ideal instance every change of float format is the identity, a
  matrix product into a zero accumulator is the plain sum, and the two programs differ only in how A X W1 is associated,
  which is immaterial where the entries are real numbers — which the precondition says of every input.
-/
import proofs.«180878_g24567212934045_cont_8to1_979_11_alg».proof.Defs
import proofs.«180878_g24567212934045_cont_8to1_979_11_alg».proof.Proof.Gen.Kernel
import proofs.«180878_g24567212934045_cont_8to1_979_11_alg».proof.Proof.Gen.KernelIdeal
import proofs.«180878_g24567212934045_cont_8to1_979_11_alg».proof.Proof.Gen.ReferenceIdeal
import proofs.«180878_g24567212934045_cont_8to1_979_11_alg».proof.Proof.Gen.Pre_finite_inputs
import proofs.«180878_g24567212934045_cont_8to1_979_11_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
